-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S98304x128 : Shape := ⟨2, ![98304, 128]⟩
abbrev S192x512x512 : Shape := ⟨3, ![192, 512, 512]⟩
abbrev S128x128 : Shape := ⟨2, ![128, 128]⟩
abbrev S128 : Shape := ⟨1, ![128]⟩
abbrev S_ : Shape := ⟨0, ![]⟩
abbrev S192x512 : Shape := ⟨2, ![192, 512]⟩

class Facts : Prop where
  bcast_S_S98304x128 : S_.BroadcastsInDim S98304x128 (![] : Fin 0 → Fin S98304x128.rank)
  reducesTo_S98304x128_S_d0_1 : S98304x128.ReducesTo [0, 1] S_
  h_S_ : 0 < S_.numel
  bcast_S_S192x512x512 : S_.BroadcastsInDim S192x512x512 (![] : Fin 0 → Fin S192x512x512.rank)
  reducesTo_S192x512x512_S_d0_1_2 : S192x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S192x512x512_S192x512_d2 : S192x512x512.ReducesTo [2] S192x512
  bcast_S_S192x512 : S_.BroadcastsInDim S192x512 (![] : Fin 0 → Fin S192x512.rank)
  reducesTo_S192x512_S_d0_1 : S192x512.ReducesTo [0, 1] S_

variable [Facts]

def fn_part3 {F : FTy → Type} [FloatOps F] (main_v48 : IVec S_ 1) (main_v49 : FVec F S192x512 .f32) (main_cst_19 : FVec F S_ .f32) : IVec S_ 1 :=
  let main_v50 : FVec F S192x512 .f32 := broadcastInDim S192x512 ![] bcast_S_S192x512 main_cst_19
  let main_v51 : IVec S192x512 1 := cmpf .ogt main_v49 main_v50
  let main_c_20 : IVec S_ 1 := constantI S_ 1 1#1
  let main_v52 : IVec S_ 1 := (fun x v => Host.reduce IntOp.andi x v reducesTo_S192x512_S_d0_1 h_S_) main_v51 main_c_20
  let main_v53 : IVec S_ 1 := andi main_v48 main_v52
  main_v53

def fn_part2 {F : FTy → Type} [FloatOps F] (main_arg1 : FVec F S192x512x512 .f32) (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_cst_18 : FVec F S_ .f32 := constant S_ .f32 0x00000000#32
  let main_v49 : FVec F S192x512 .f32 := (fun x v => Host.reduceAdd x v reducesTo_S192x512x512_S192x512_d2 h_S_) main_arg1 main_cst_18
  let main_cst_19 : FVec F S_ .f32 := constant S_ .f32 0x00000000#32
  fn_part3 (F := F) main_v48 main_v49 main_cst_19

def fn_part1 {F : FTy → Type} [FloatOps F] (main_arg1 : FVec F S192x512x512 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S98304x128 .f32) (main_arg1 : FVec F S192x512x512 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S98304x128 .f32 := Host.absf main_arg0
  let main_cst : FVec F S_ .f32 := constant S_ .f32 0x7F800000#32
  let main_v1 : FVec F S98304x128 .f32 := broadcastInDim S98304x128 ![] bcast_S_S98304x128 main_cst
  let main_v2 : IVec S98304x128 1 := cmpf .olt main_v0 main_v1
  let main_c : IVec S_ 1 := constantI S_ 1 1#1
  let main_v3 : IVec S_ 1 := (fun x v => Host.reduce IntOp.andi x v reducesTo_S98304x128_S_d0_1 h_S_) main_v2 main_c
  let main_v4 : FVec F S192x512x512 .f32 := Host.absf main_arg1
  let main_cst_0 : FVec F S_ .f32 := constant S_ .f32 0x7F800000#32
  let main_v5 : FVec F S192x512x512 .f32 := broadcastInDim S192x512x512 ![] bcast_S_S192x512x512 main_cst_0
  let main_v6 : IVec S192x512x512 1 := cmpf .olt main_v4 main_v5
  let main_c_1 : IVec S_ 1 := constantI S_ 1 1#1
  let main_v7 : IVec S_ 1 := (fun x v => Host.reduce IntOp.andi x v reducesTo_S192x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_arg8 main_arg9 main_v13 main_v16
-- ==== Kernel.lean ====
abbrev S98304x128 : Shape := ⟨2, ![98304, 128]⟩
abbrev S192x512x512 : Shape := ⟨3, ![192, 512, 512]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1024x128 : Shape := ⟨2, ![1024, 128]⟩
abbrev S2x512x512 : Shape := ⟨3, ![2, 512, 512]⟩
abbrev S1024 : Shape := ⟨1, ![1024]⟩
abbrev S1024x1 : Shape := ⟨2, ![1024, 1]⟩
abbrev S1024x384 : Shape := ⟨2, ![1024, 384]⟩
abbrev S1x384 : Shape := ⟨2, ![1, 384]⟩
abbrev S2x512x128 : Shape := ⟨3, ![2, 512, 128]⟩
abbrev S2x512 : Shape := ⟨2, ![2, 512]⟩
abbrev S2x512x1 : Shape := ⟨3, ![2, 512, 1]⟩
abbrev S1x128 : Shape := ⟨2, ![1, 128]⟩

abbrev nBuf : Space → Nat
  | .hbm => 19
  | .vmem => 10
  | .smem => 0
  | _ => 0

abbrev bufTy : (tb : Table) → Fin (tcTables nBuf tb) → BufTy
  | .hbm, ⟨0, _⟩ => ⟨S98304x128, .f32⟩
  | .hbm, ⟨1, _⟩ => ⟨S192x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x384, .f32⟩
  | .hbm, ⟨14, _⟩ => ⟨S128x384, .bf16⟩
  | .hbm, ⟨15, _⟩ => ⟨S384, .f32⟩
  | .hbm, ⟨16, _⟩ => ⟨S128x128, .f32⟩
  | .hbm, ⟨17, _⟩ => ⟨S128x128, .bf16⟩
  | .hbm, ⟨18, _⟩ => ⟨S98304x128, .f32⟩
  | .local _ .vmem, ⟨0, _⟩ => ⟨S1024x128, .f32⟩
  | .local _ .vmem, ⟨1, _⟩ => ⟨S1024x128, .f32⟩
  | .local _ .vmem, ⟨2, _⟩ => ⟨S2x512x512, .f32⟩
  | .local _ .vmem, ⟨3, _⟩ => ⟨S2x512x512, .f32⟩
  | .local _ .vmem, ⟨4, _⟩ => ⟨S128x384, .bf16⟩
  | .local _ .vmem, ⟨5, _⟩ => ⟨S384, .f32⟩
  | .local _ .vmem, ⟨6, _⟩ => ⟨S128x128, .bf16⟩
  | .local _ .vmem, ⟨7, _⟩ => ⟨S128, .f32⟩
  | .local _ .vmem, ⟨8, _⟩ => ⟨S1024x128, .f32⟩
  | .local _ .vmem, ⟨9, _⟩ => ⟨S1024x128, .f32⟩
  | _, _ => ⟨S98304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  concatenates_S128x128_S128x128_S128x128_S128x384_d1 : Shape.Concatenates [S128x128, S128x128, S128x128] S128x384 1
  bitsLt_bf16_f32 : FTy.bits .bf16 < FTy.bits .f32
  concatenates_S128_S128_S128_S384_d0 : Shape.Concatenates [S128, S128, S128] S384 0
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  shapeCasts_S1024x128_S2x512x128 : S1024x128.ShapeCasts S2x512x128
  inb_S2x512x512_S2x512x512_0_0_0 : ∀ a, (![0, 0, 0] : Fin 3 → Nat) a + S2x512x512.size a ≤ S2x512x512.size a
  h_S2x512x512 : 0 < S2x512x512.numel
  reduces_S2x512x512_S2x512 : S2x512x512.Reduces [2] S2x512
  shapeCasts_S2x512_S2x512x1 : S2x512.ShapeCasts S2x512x1
  broadcasts_S2x512x1_S2x512x512 : S2x512x1.Broadcasts S2x512x512
  reduces_S2x512x128_S2x512 : S2x512x128.Reduces [2] S2x512
  broadcasts_S2x512x1_S2x512x128 : S2x512x1.Broadcasts S2x512x128
  shapeCasts_S2x512x128_S1024x128 : S2x512x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S1024x128_S128x384_S1024x384_1_0_0_1_n_n_wf : DotDims.WF S1024x128 S128x384 S1024x384 [1] [0] [0] [1] [] []
  dot_S2x512x128_S2x512x128_S2x512x512_2_2_1_1_0_0_wf : DotDims.WF S2x512x128 S2x512x128 S2x512x512 [2] [2] [1] [1] [0] [0]
  dot_S2x512x512_S2x512x128_S2x512x128_2_1_1_2_0_0_wf : DotDims.WF S2x512x512 S2x512x128 S2x512x128 [2] [1] [1] [2] [0] [0]
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S98304x128.size a
  hwx0_0 : ∀ i : grid0.Coords, EltTy.bits .f32 = 32 ∨ (Rect.block (s := S98304x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S192x512x512.size a
  hwx0_1 : ∀ i : grid0.Coords, EltTy.bits .f32 = 32 ∨ (Rect.block (s := S192x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S98304x128.size a
  hwx0_6 : ∀ i : grid0.Coords, EltTy.bits .f32 = 32 ∨ (Rect.block (s := S98304x128) S1024x128.size (cc0_transform_6 i) (hinb0_6 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S2x512x128_S2x512x128_S2x512x512_2_2_1_1_0_0 : DotDims S2x512x128 S2x512x128 S2x512x512 where
  lhsContracting := [2]
  rhsContracting := [2]
  lhsNonContracting := [1]
  rhsNonContracting := [1]
  lhsBatch := [0]
  rhsBatch := [0]
  wf := dot_S2x512x128_S2x512x128_S2x512x512_2_2_1_1_0_0_wf
def dot_S2x512x512_S2x512x128_S2x512x128_2_1_1_2_0_0 : DotDims S2x512x512 S2x512x128 S2x512x128 where
  lhsContracting := [2]
  rhsContracting := [1]
  lhsNonContracting := [1]
  rhsNonContracting := [2]
  lhsBatch := [0]
  rhsBatch := [0]
  wf := dot_S2x512x512_S2x512x128_S2x512x128_2_1_1_2_0_0_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S98304x128 : Shape := ⟨2, ![98304, 128]⟩
abbrev S192x512x512 : Shape := ⟨3, ![192, 512, 512]⟩
abbrev S128x128 : Shape := ⟨2, ![128, 128]⟩
abbrev S128 : Shape := ⟨1, ![128]⟩
abbrev S_ : Shape := ⟨0, ![]⟩
abbrev S98304 : Shape := ⟨1, ![98304]⟩
abbrev S98304x1 : Shape := ⟨2, ![98304, 1]⟩
abbrev S192x512x128 : Shape := ⟨3, ![192, 512, 128]⟩
abbrev S1x1x128 : Shape := ⟨3, ![1, 1, 128]⟩
abbrev S192x512 : Shape := ⟨2, ![192, 512]⟩
abbrev S192x512x1 : Shape := ⟨3, ![192, 512, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S98304x128, .f32⟩
  | .hbm, ⟨1, _⟩ => ⟨S192x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S98304, .f32⟩
  | .hbm, ⟨12, _⟩ => ⟨S98304x1, .f32⟩
  | .hbm, ⟨13, _⟩ => ⟨S_, .f32⟩
  | .hbm, ⟨14, _⟩ => ⟨S98304x1, .f32⟩
  | .hbm, ⟨15, _⟩ => ⟨S98304x1, .f32⟩
  | .hbm, ⟨16, _⟩ => ⟨S98304x128, .f32⟩
  | .hbm, ⟨17, _⟩ => ⟨S98304x128, .f32⟩
  | .hbm, ⟨18, _⟩ => ⟨S98304x128, .f32⟩
  | .hbm, ⟨19, _⟩ => ⟨S_, .f32⟩
  | .hbm, ⟨20, _⟩ => ⟨S98304, .f32⟩
  | .hbm, ⟨21, _⟩ => ⟨S98304x1, .f32⟩
  | .hbm, ⟨22, _⟩ => ⟨S_, .f32⟩
  | .hbm, ⟨23, _⟩ => ⟨S98304x1, .f32⟩
  | .hbm, ⟨24, _⟩ => ⟨S98304x1, .f32⟩
  | .hbm, ⟨25, _⟩ => ⟨S98304x128, .f32⟩
  | .hbm, ⟨26, _⟩ => ⟨S98304x128, .f32⟩
  | .hbm, ⟨27, _⟩ => ⟨S_, .f32⟩
  | .hbm, ⟨28, _⟩ => ⟨S98304x1, .f32⟩
  | .hbm, ⟨29, _⟩ => ⟨S98304x1, .f32⟩
  | .hbm, ⟨30, _⟩ => ⟨S98304x1, .f32⟩
  | .hbm, ⟨31, _⟩ => ⟨S98304x128, .f32⟩
  | .hbm, ⟨32, _⟩ => ⟨S98304x128, .f32⟩
  | .hbm, ⟨33, _⟩ => ⟨S_, .f32⟩
  | .hbm, ⟨34, _⟩ => ⟨S98304x128, .f32⟩
  | .hbm, ⟨35, _⟩ => ⟨S98304x128, .f32⟩
  | .hbm, ⟨36, _⟩ => ⟨S192x512x128, .f32⟩
  | .hbm, ⟨37, _⟩ => ⟨S192x512x128, .f32⟩
  | .hbm, ⟨38, _⟩ => ⟨S1x1x128, .f32⟩
  | .hbm, ⟨39, _⟩ => ⟨S192x512x128, .f32⟩
  | .hbm, ⟨40, _⟩ => ⟨S192x512x128, .f32⟩
  | .hbm, ⟨41, _⟩ => ⟨S192x512x128, .f32⟩
  | .hbm, ⟨42, _⟩ => ⟨S1x1x128, .f32⟩
  | .hbm, ⟨43, _⟩ => ⟨S192x512x128, .f32⟩
  | .hbm, ⟨44, _⟩ => ⟨S192x512x128, .f32⟩
  | .hbm, ⟨45, _⟩ => ⟨S192x512x128, .f32⟩
  | .hbm, ⟨46, _⟩ => ⟨S1x1x128, .f32⟩
  | .hbm, ⟨47, _⟩ => ⟨S192x512x128, .f32⟩
  | .hbm, ⟨48, _⟩ => ⟨S192x512x128, .f32⟩
  | .hbm, ⟨49, _⟩ => ⟨S192x512x512, .f32⟩
  | .hbm, ⟨50, _⟩ => ⟨S_, .f32⟩
  | .hbm, ⟨51, _⟩ => ⟨S192x512, .f32⟩
  | .hbm, ⟨52, _⟩ => ⟨S192x512x1, .f32⟩
  | .hbm, ⟨53, _⟩ => ⟨S192x512x1, .f32⟩
  | .hbm, ⟨54, _⟩ => ⟨S192x512x512, .f32⟩
  | .hbm, ⟨55, _⟩ => ⟨S192x512x512, .f32⟩
  | .hbm, ⟨56, _⟩ => ⟨S_, .f32⟩
  | .hbm, ⟨57, _⟩ => ⟨S192x512x512, .f32⟩
  | .hbm, ⟨58, _⟩ => ⟨S192x512x512, .i1⟩
  | .hbm, ⟨59, _⟩ => ⟨S_, .f32⟩
  | .hbm, ⟨60, _⟩ => ⟨S_, .f32⟩
  | .hbm, ⟨61, _⟩ => ⟨S192x512x512, .f32⟩
  | .hbm, ⟨62, _⟩ => ⟨S192x512x512, .f32⟩
  | .hbm, ⟨63, _⟩ => ⟨S_, .f32⟩
  | .hbm, ⟨64, _⟩ => ⟨S192x512, .f32⟩
  | .hbm, ⟨65, _⟩ => ⟨S_, .f32⟩
  | .hbm, ⟨66, _⟩ => ⟨S192x512, .f32⟩
  | .hbm, ⟨67, _⟩ => ⟨S192x512, .f32⟩
  | .hbm, ⟨68, _⟩ => ⟨S192x512x1, .f32⟩
  | .hbm, ⟨69, _⟩ => ⟨S192x512x512, .f32⟩
  | .hbm, ⟨70, _⟩ => ⟨S192x512x512, .f32⟩
  | .hbm, ⟨71, _⟩ => ⟨S192x512x512, .f32⟩
  | .hbm, ⟨72, _⟩ => ⟨S_, .f32⟩
  | .hbm, ⟨73, _⟩ => ⟨S192x512, .f32⟩
  | .hbm, ⟨74, _⟩ => ⟨S192x512x1, .f32⟩
  | .hbm, ⟨75, _⟩ => ⟨S192x512x512, .f32⟩
  | .hbm, ⟨76, _⟩ => ⟨S192x512x512, .f32⟩
  | .hbm, ⟨77, _⟩ => ⟨S192x512x128, .f32⟩
  | .hbm, ⟨78, _⟩ => ⟨S98304x128, .f32⟩
  | .hbm, ⟨79, _⟩ => ⟨S_, .f32⟩
  | .hbm, ⟨80, _⟩ => ⟨S98304, .f32⟩
  | .hbm, ⟨81, _⟩ => ⟨S98304x1, .f32⟩
  | .hbm, ⟨82, _⟩ => ⟨S_, .f32⟩
  | .hbm, ⟨83, _⟩ => ⟨S98304x1, .f32⟩
  | .hbm, ⟨84, _⟩ => ⟨S98304x1, .f32⟩
  | .hbm, ⟨85, _⟩ => ⟨S98304x128, .f32⟩
  | .hbm, ⟨86, _⟩ => ⟨S98304x128, .f32⟩
  | .hbm, ⟨87, _⟩ => ⟨S98304x128, .f32⟩
  | .hbm, ⟨88, _⟩ => ⟨S_, .f32⟩
  | .hbm, ⟨89, _⟩ => ⟨S98304, .f32⟩
  | .hbm, ⟨90, _⟩ => ⟨S98304x1, .f32⟩
  | .hbm, ⟨91, _⟩ => ⟨S_, .f32⟩
  | .hbm, ⟨92, _⟩ => ⟨S98304x1, .f32⟩
  | .hbm, ⟨93, _⟩ => ⟨S98304x1, .f32⟩
  | .hbm, ⟨94, _⟩ => ⟨S98304x128, .f32⟩
  | .hbm, ⟨95, _⟩ => ⟨S98304x128, .f32⟩
  | .hbm, ⟨96, _⟩ => ⟨S_, .f32⟩
  | .hbm, ⟨97, _⟩ => ⟨S98304x1, .f32⟩
  | .hbm, ⟨98, _⟩ => ⟨S98304x1, .f32⟩
  | .hbm, ⟨99, _⟩ => ⟨S98304x1, .f32⟩
  | .hbm, ⟨100, _⟩ => ⟨S98304x128, .f32⟩
  | .hbm, ⟨101, _⟩ => ⟨S98304x128, .f32⟩
  | .hbm, ⟨102, _⟩ => ⟨S_, .f32⟩
  | .hbm, ⟨103, _⟩ => ⟨S98304x128, .f32⟩
  | .hbm, ⟨104, _⟩ => ⟨S98304x128, .f32⟩
  | .hbm, ⟨105, _⟩ => ⟨S128x128, .f32⟩
  | .hbm, ⟨106, _⟩ => ⟨S98304x128, .f32⟩
  | .hbm, ⟨107, _⟩ => ⟨S1x128, .f32⟩
  | .hbm, ⟨108, _⟩ => ⟨S98304x128, .f32⟩
  | .hbm, ⟨109, _⟩ => ⟨S98304x128, .f32⟩
  | .hbm, ⟨110, _⟩ => ⟨S98304x128, .f32⟩
  | _, _ => ⟨S98304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call2_cst : Ref sig .tc := ⟨.hbm, 102, rfl⟩
abbrev main_call2_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

class Facts₀ : Prop where
  reducesTo_S98304x128_S98304_d1 : S98304x128.ReducesTo [1] S98304
  h_S_ : 0 < S_.numel
  bcast_S98304_S98304x1_0 : S98304.BroadcastsInDim S98304x1 (![0] : Fin 1 → Fin S98304x1.rank)
  bcast_S_S98304x1 : S_.BroadcastsInDim S98304x1 (![] : Fin 0 → Fin S98304x1.rank)
  bcast_S98304x1_S98304x128_0_1 : S98304x1.BroadcastsInDim S98304x128 (![0, 1] : Fin 2 → Fin S98304x128.rank)
  bcast_S_S98304x128 : S_.BroadcastsInDim S98304x128 (![] : Fin 0 → Fin S98304x128.rank)
  shapeCasts_S98304x128_S192x512x128 : S98304x128.ShapeCasts S192x512x128
  bcast_S128_S1x1x128_2 : S128.BroadcastsInDim S1x1x128 (![2] : Fin 1 → Fin S1x1x128.rank)
  bcast_S1x1x128_S192x512x128_0_1_2 : S1x1x128.BroadcastsInDim S192x512x128 (![0, 1, 2] : Fin 3 → Fin S192x512x128.rank)
  reducesTo_S192x512x512_S192x512_d2 : S192x512x512.ReducesTo [2] S192x512
  bcast_S192x512_S192x512x1_0_1 : S192x512.BroadcastsInDim S192x512x1 (![0, 1] : Fin 2 → Fin S192x512x1.rank)
  bcast_S192x512x1_S192x512x512_0_1_2 : S192x512x1.BroadcastsInDim S192x512x512 (![0, 1, 2] : Fin 3 → Fin S192x512x512.rank)
  bcast_S_S192x512x512 : S_.BroadcastsInDim S192x512x512 (![] : Fin 0 → Fin S192x512x512.rank)
  bcast_S_S192x512 : S_.BroadcastsInDim S192x512 (![] : Fin 0 → Fin S192x512.rank)
  shapeCasts_S192x512x128_S98304x128 : S192x512x128.ShapeCasts S98304x128
  transposes_S128x128_S128x128_1_0 : S128x128.Transposes [1, 0] S128x128
  bcast_S128_S1x128_1 : S128.BroadcastsInDim S1x128 (![1] : Fin 1 → Fin S1x128.rank)
  bcast_S1x128_S98304x128_0_1 : S1x128.BroadcastsInDim S98304x128 (![0, 1] : Fin 2 → Fin S98304x128.rank)
  dot_S192x512x128_S128x128_S192x512x128_2_1_01_0_n_n_wf : DotDims.WF S192x512x128 S128x128 S192x512x128 [2] [1] [0, 1] [0] [] []
  dot_S192x512x128_S192x512x128_S192x512x512_2_2_1_1_0_0_wf : DotDims.WF S192x512x128 S192x512x128 S192x512x512 [2] [2] [1] [1] [0] [0]
  dot_S192x512x512_S192x512x128_S192x512x128_2_1_1_2_0_0_wf : DotDims.WF S192x512x512 S192x512x128 S192x512x128 [2] [1] [1] [2] [0] [0]
  dot_S98304x128_S128x128_S98304x128_1_0_0_1_n_n_wf : DotDims.WF S98304x128 S128x128 S98304x128 [1] [0] [0] [1] [] []

variable [Facts₀]

def dot_S192x512x128_S128x128_S192x512x128_2_1_01_0_n_n : DotDims S192x512x128 S128x128 S192x512x128 where
  lhsContracting := [2]
  rhsContracting := [1]
  lhsNonContracting := [0, 1]
  rhsNonContracting := [0]
  lhsBatch := []
  rhsBatch := []
  wf := dot_S192x512x128_S128x128_S192x512x128_2_1_01_0_n_n_wf
def dot_S192x512x128_S192x512x128_S192x512x512_2_2_1_1_0_0 : DotDims S192x512x128 S192x512x128 S192x512x512 where
  lhsContracting := [2]
  rhsContracting := [2]
  lhsNonContracting := [1]
  rhsNonContracting := [1]
  lhsBatch := [0]
  rhsBatch := [0]
  wf := dot_S192x512x128_S192x512x128_S192x512x512_2_2_1_1_0_0_wf
def dot_S192x512x512_S192x512x128_S192x512x128_2_1_1_2_0_0 : DotDims S192x512x512 S192x512x128 S192x512x128 where
  lhsContracting := [2]
  rhsContracting := [1]
  lhsNonContracting := [1]
  rhsNonContracting := [2]
  lhsBatch := [0]
  rhsBatch := [0]
  wf := dot_S192x512x512_S192x512x128_S192x512x128_2_1_1_2_0_0_wf
def dot_S98304x128_S128x128_S98304x128_1_0_0_1_n_n : DotDims S98304x128 S128x128 S98304x128 where
  lhsContracting := [1]
  rhsContracting := [0]
  lhsNonContracting := [0]
  rhsNonContracting := [1]
  lhsBatch := []
  rhsBatch := []
  wf := dot_S98304x128_S128x128_S98304x128_1_0_0_1_n_n_wf

class Facts : Prop extends Facts₀ where

variable [Facts]
-- ==== Proof.FrameBits.lean ====
/-
  The frame of the program: `@main` is eight host operations (four transposes, two concatenations, two format
  changes) followed by one grid of 96 points. At point `t` the body finds, in its six input buffers, rows
  `1024 t … 1024 t + 1023` of `x`, subgraphs `2 t` and `2 t + 1` of `adj`, and the whole of the fused weight,
  the fused bias, the output weight and the output bias; it loads them, computes one value, and stores it over
  the whole output buffer. Hence every input buffer keeps its block, the output buffer ends at one function
  (`out6`) of the six input blocks, and no argument array is written by anything: the ten arguments end as
  they began, and the result array ends block by block at `out6` of the blocks.
-/
import proofs.«163115_j56324201120151_2_alg».proof.Proof.Gen.Kernel.Launch
import proofs.«163115_j56324201120151_2_alg».proof.Proof.Gen.Kernel.Skeleton
import proofs.«163115_j56324201120151_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- What each buffer of core `c` holds when the grid starts: the launch contents, rewritten by the eight host
    operations in order. -/
abbrev V (c : Dev nD) (b : Ref sig .tc) : Buf (Elt F) ((c : Thread nD τ).loc b) := StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- `@main` is the eight host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the eight host operations writes is found by the grid as launched. -/
theorem V_kept (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    obtain ⟨h0, h1, h2, h3, h4, h5, h6, h7⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)

/-! ## The blocks -/

/-- Block `t` of window `w`'s array, as the grid finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its buffer as found holds its block at every point, whether the point
    fetched it or its block index stayed where it was (the four weight and bias windows are fetched once). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S1024x128 := Rect.unit (s := S1024x128) ![0, 0] S1024x128.size inb_S1024x128_S1024x128_0_0
abbrev rAdj : Rect S2x512x512 := Rect.unit (s := S2x512x512) ![0, 0, 0] S2x512x512.size inb_S2x512x512_S2x512x512_0_0_0
abbrev rWqkv : Rect S128x384 := Rect.unit (s := S128x384) ![0, 0] S128x384.size inb_S128x384_S128x384_0_0
abbrev rBqkv : Rect S384 := Rect.unit (s := S384) ![0] S384.size inb_S384_S384_0
abbrev rWo : Rect S128x128 := Rect.unit (s := S128x128) ![0, 0] S128x128.size inb_S128x128_S128x128_0_0
abbrev rBo : Rect S128 := Rect.unit (s := S128) ![0] S128.size inb_S128_S128_0

/-- The value the body stores, from what its six loads read. -/
def stored (v0 : Vec F S1024x128 .f32) (v40 : Vec F S2x512x512 .f32) (v22 : Vec F S128x384 .bf16) (v25 : Vec F S384 .f32)
    (v83 : Vec F S128x128 .bf16) (v86 : Vec F S128 .f32) : FVec F S1024x128 .f32 :=
  k0_pay1 v0 (k0_pay6 (k0_pay3 v0 v22 v25) (k0_pay4 v0 v22 v25) v40 (k0_pay5 (F := F)) v83) v86

/-- The output buffer after the body: its one store, over the whole buffer, of `stored` of the six input
    buffers' contents. -/
def out6 (x0 : Vec F S1024x128 .f32) (x1 : Vec F S2x512x512 .f32) (x2 : Vec F S128x384 .bf16) (x3 : Vec F S384 .f32)
    (x4 : Vec F S128x128 .bf16) (x5 : Vec F S128 .f32) : Vec F S1024x128 .f32 :=
  View.canon [⟨rX, stored (View.ld x0 rX) (View.ld x1 rAdj) (View.ld x2 rWqkv) (View.ld x3 rBqkv) (View.ld x4 rWo) (View.ld x5 rBo)⟩]

/-- The one store covers the output buffer. -/
theorem cover6 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 4000000 in
/-- The body, on six input buffers at contents `x0 … x5` and an output buffer at anything, runs to the end with the
    inputs as they were and the output buffer at `out6 x0 … x5`. -/
theorem sound_kernel (c : Dev nD) (E : Set ℕ) (i : grid0.Coords)
    (arg1 : Memref sig .tc .vmem S1024x128 .f32) (harg1 : arg1.IsWhole) (arg2 : Memref sig .tc .vmem S2x512x512 .f32) (harg2 : arg2.IsWhole)
    (arg3 : Memref sig .tc .vmem S128x384 .bf16) (harg3 : arg3.IsWhole) (arg4 : Memref sig .tc .vmem S384 .f32) (harg4 : arg4.IsWhole)
    (arg5 : Memref sig .tc .vmem S128x128 .bf16) (harg5 : arg5.IsWhole) (arg6 : Memref sig .tc .vmem S128 .f32) (harg6 : arg6.IsWhole)
    (arg7 : Memref sig .tc .vmem S1024x128 .f32) (harg7 : arg7.IsWhole)
    (x0 : Vec F S1024x128 .f32) (x1 : Vec F S2x512x512 .f32) (x2 : Vec F S128x384 .bf16) (x3 : Vec F S384 .f32)
    (x4 : Vec F S128x128 .bf16) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__gnn_kernel i arg1 harg1 arg2 harg2 arg3 harg3 arg4 harg4 arg5 harg5 arg6 harg6 arg7 harg7) K := by
  simp only [cc0__gnn_kernel_eq_skeleton]; unfold cc0__gnn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## What every point leaves, and the run -/

/-- The proof data of the grid on core `c`: the arrays as the grid finds them; after the body at point `t` every
    input buffer at its block and the output buffer at `out6` of the six blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of `@main` terminates, every window's array ending at what its blocks' write-backs
    make of it and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The ten argument arrays end as they began: three are windows' arrays no block of which is written back, seven
    are in no window and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c)))⟩) (run_main m ρ)

end Cert.Kernel.Frm

end
-- ==== Proof.FrameIdeal.lean ====
/-
  The frame of the program: `@main` is eight host operations (four transposes, two concatenations, two format
  changes) followed by one grid of 96 points. At point `t` the body finds, in its six input buffers, rows
  `1024 t … 1024 t + 1023` of `x`, subgraphs `2 t` and `2 t + 1` of `adj`, and the whole of the fused weight,
  the fused bias, the output weight and the output bias; it loads them, computes one value, and stores it over
  the whole output buffer. Hence every input buffer keeps its block, the output buffer ends at one function
  (`out6`) of the six input blocks, and no argument array is written by anything: the ten arguments end as
  they began, and the result array ends block by block at `out6` of the blocks.
-/
import proofs.«163115_j56324201120151_2_alg».proof.Proof.Gen.KernelIdeal.Launch
import proofs.«163115_j56324201120151_2_alg».proof.Proof.Gen.KernelIdeal.Skeleton
import proofs.«163115_j56324201120151_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the grid -/

/-- What each buffer of core `c` holds when the grid starts: the launch contents, rewritten by the eight host
    operations in order. -/
abbrev V (c : Dev nD) (b : Ref sig .tc) : Buf (Elt F) ((c : Thread nD τ).loc b) := StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- `@main` is the eight host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the eight host operations writes is found by the grid as launched. -/
theorem V_kept (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    obtain ⟨h0, h1, h2, h3, h4, h5, h6, h7⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)

/-! ## The blocks -/

/-- Block `t` of window `w`'s array, as the grid finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its buffer as found holds its block at every point, whether the point
    fetched it or its block index stayed where it was (the four weight and bias windows are fetched once). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S1024x128 := Rect.unit (s := S1024x128) ![0, 0] S1024x128.size inb_S1024x128_S1024x128_0_0
abbrev rAdj : Rect S2x512x512 := Rect.unit (s := S2x512x512) ![0, 0, 0] S2x512x512.size inb_S2x512x512_S2x512x512_0_0_0
abbrev rWqkv : Rect S128x384 := Rect.unit (s := S128x384) ![0, 0] S128x384.size inb_S128x384_S128x384_0_0
abbrev rBqkv : Rect S384 := Rect.unit (s := S384) ![0] S384.size inb_S384_S384_0
abbrev rWo : Rect S128x128 := Rect.unit (s := S128x128) ![0, 0] S128x128.size inb_S128x128_S128x128_0_0
abbrev rBo : Rect S128 := Rect.unit (s := S128) ![0] S128.size inb_S128_S128_0

/-- The value the body stores, from what its six loads read. -/
def stored (v0 : Vec F S1024x128 .f32) (v40 : Vec F S2x512x512 .f32) (v22 : Vec F S128x384 .bf16) (v25 : Vec F S384 .f32)
    (v83 : Vec F S128x128 .bf16) (v86 : Vec F S128 .f32) : FVec F S1024x128 .f32 :=
  k0_pay1 v0 (k0_pay6 (k0_pay3 v0 v22 v25) (k0_pay4 v0 v22 v25) v40 (k0_pay5 (F := F)) v83) v86

/-- The output buffer after the body: its one store, over the whole buffer, of `stored` of the six input
    buffers' contents. -/
def out6 (x0 : Vec F S1024x128 .f32) (x1 : Vec F S2x512x512 .f32) (x2 : Vec F S128x384 .bf16) (x3 : Vec F S384 .f32)
    (x4 : Vec F S128x128 .bf16) (x5 : Vec F S128 .f32) : Vec F S1024x128 .f32 :=
  View.canon [⟨rX, stored (View.ld x0 rX) (View.ld x1 rAdj) (View.ld x2 rWqkv) (View.ld x3 rBqkv) (View.ld x4 rWo) (View.ld x5 rBo)⟩]

/-- The one store covers the output buffer. -/
theorem cover6 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 4000000 in
/-- The body, on six input buffers at contents `x0 … x5` and an output buffer at anything, runs to the end with the
    inputs as they were and the output buffer at `out6 x0 … x5`. -/
theorem sound_kernel (c : Dev nD) (E : Set ℕ) (i : grid0.Coords)
    (arg1 : Memref sig .tc .vmem S1024x128 .f32) (harg1 : arg1.IsWhole) (arg2 : Memref sig .tc .vmem S2x512x512 .f32) (harg2 : arg2.IsWhole)
    (arg3 : Memref sig .tc .vmem S128x384 .bf16) (harg3 : arg3.IsWhole) (arg4 : Memref sig .tc .vmem S384 .f32) (harg4 : arg4.IsWhole)
    (arg5 : Memref sig .tc .vmem S128x128 .bf16) (harg5 : arg5.IsWhole) (arg6 : Memref sig .tc .vmem S128 .f32) (harg6 : arg6.IsWhole)
    (arg7 : Memref sig .tc .vmem S1024x128 .f32) (harg7 : arg7.IsWhole)
    (x0 : Vec F S1024x128 .f32) (x1 : Vec F S2x512x512 .f32) (x2 : Vec F S128x384 .bf16) (x3 : Vec F S384 .f32)
    (x4 : Vec F S128x128 .bf16) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__gnn_kernel i arg1 harg1 arg2 harg2 arg3 harg3 arg4 harg4 arg5 harg5 arg6 harg6 arg7 harg7) K := by
  simp only [cc0__gnn_kernel_eq_skeleton]; unfold cc0__gnn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## What every point leaves, and the run -/

/-- The proof data of the grid on core `c`: the arrays as the grid finds them; after the body at point `t` every
    input buffer at its block and the output buffer at `out6` of the six blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its input buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of `@main` terminates, every window's array ending at what its blocks' write-backs
    make of it and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The ten argument arrays end as they began: three are windows' arrays no block of which is written back, seven
    are in no window and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c)))⟩) (run_main m ρ)

end Cert.KernelIdeal.Frm

end
-- ==== Proof.KStages.lean ====
/-
  The body's arithmetic, cut into the five stretches the mathematics has: a row normalisation followed by a
  positive part (of the 1024 rows of the block); the fused projection to queries, keys and values, re-laid as two
  subgraphs of 512 nodes; the masked, degree-scaled, row-normalised exponentials of the query-key products; their
  product with the values, normalised and cut at zero again; and the output projection added to the block. Each
  stretch is stated as a function of what it reads, so that it can be compared with the reference one stretch at
  a time; `stored_eq` says the body's stored value is their composition.
-/
import proofs.«163115_j56324201120151_2_alg».proof.Proof.FrameIdeal

noncomputable section

namespace Cert.KernelIdeal.KS

open Cert.KernelIdeal Cert.KernelIdeal.Gen Idealize.ShloMosaic Idealize.SL.Sem

variable {F : FTy → Type} [FloatOps F] [Named F]

/-- Rows normalised (mean removed, divided by the root of the variance plus a small constant), then cut at zero. -/
def xs (v0 : FVec F S1024x128 .f32) : FVec F S1024x128 .f32 :=
  have v1 : FVec F S1024 .f32 := multiReduction .add [1] S1024 v0 0x00000000#32 reduces_S1024x128_S1024 (.inl rfl) rfl
  have v2 : FVec F S1024x1 .f32 := shapeCast S1024x1 v1 shapeCasts_S1024_S1024x1
  have cst_1 : F .f32 := Scalar.ofBits .f32 0x43000000#32
  have v3 : FVec F S1024x1 .f32 := broadcast S1024x1 cst_1
  have v4 : FVec F S1024x1 .f32 := divf v2 v3
  have v5 : FVec F S1024x128 .f32 := broadcastTo S1024x128 v4 broadcasts_S1024x1_S1024x128
  have v6 : FVec F S1024x128 .f32 := subf v0 v5
  have v7 : FVec F S1024x128 .f32 := mulf v6 v6
  have v8 : FVec F S1024 .f32 := multiReduction .add [1] S1024 v7 0x00000000#32 reduces_S1024x128_S1024 (.inl rfl) rfl
  have v9 : FVec F S1024x1 .f32 := shapeCast S1024x1 v8 shapeCasts_S1024_S1024x1
  have cst_3 : F .f32 := Scalar.ofBits .f32 0x43000000#32
  have v10 : FVec F S1024x1 .f32 := broadcast S1024x1 cst_3
  have v11 : FVec F S1024x1 .f32 := divf v9 v10
  have v12 : FVec F S1024x128 .f32 := broadcastTo S1024x128 v4 broadcasts_S1024x1_S1024x128
  have v13 : FVec F S1024x128 .f32 := subf v0 v12
  have cst_4 : F .f32 := Scalar.ofBits .f32 0x3727C5AC#32
  have v14 : FVec F S1024x1 .f32 := broadcast S1024x1 cst_4
  have v15 : FVec F S1024x1 .f32 := addf v11 v14
  have v16 : FVec F S1024x1 .f32 := rsqrt v15
  have v17 : FVec F S1024x128 .f32 := broadcastTo S1024x128 v16 broadcasts_S1024x1_S1024x128
  have v18 : FVec F S1024x128 .f32 := mulf v13 v17
  have cst_5 : F .f32 := Scalar.ofBits .f32 0x00000000#32
  have v19 : FVec F S1024x128 .f32 := broadcast S1024x128 cst_5
  have v20 : FVec F S1024x128 .f32 := maximumf v18 v19
  v20

/-- The fused projection: the normalised rows times the 128 × 384 weight, plus the bias row. -/
def qkv (x : FVec F S1024x128 .f32) (v22 : FVec F S128x384 .bf16) (v25 : FVec F S384 .f32) : FVec F S1024x384 .f32 :=
  have v21 : FVec F S1024x128 .bf16 := truncf .bf16 x bitsLt_bf16_f32
  have v23 : FVec F S128x384 .bf16 := shapeCast S128x384 v22 shapeCasts_S128x384_S128x384
  have cst_8 : FVec F S1024x384 .f32 := constant S1024x384 .f32 0x00000000#32
  have v24 : FVec F S1024x384 .f32 := matmul dot_S1024x128_S128x384_S1024x384_1_0_0_1_n_n none v21 v23 cst_8
  have v26 : FVec F S384 .f32 := shapeCast S384 v25 shapeCasts_S384_S384
  have v27 : FVec F S1x384 .f32 := shapeCast S1x384 v26 shapeCasts_S384_S1x384
  have v28 : FVec F S1024x384 .f32 := broadcastTo S1024x384 v27 broadcasts_S1x384_S1024x384
  have v29 : FVec F S1024x384 .f32 := addf v24 v28
  v29

/-- Columns `off … off + 127` of the fused projection, re-laid as two subgraphs of 512 nodes. -/
def part (off : Fin 2 → Nat) (h : S1024x384.Slices off S1024x128) (v29 : FVec F S1024x384 .f32) : FVec F S2x512x128 .bf16 :=
  shapeCast S2x512x128 (truncf .bf16 (extractStridedSlice S1024x128 off v29 h) bitsLt_bf16_f32) shapeCasts_S1024x128_S2x512x128

/-- Query-key products, per subgraph. -/
def scores (v34 v36 : FVec F S2x512x128 .bf16) : FVec F S2x512x512 .f32 :=
  have cst_10 : FVec F S2x512x512 .f32 := constant S2x512x512 .f32 0x00000000#32
  have v39 : FVec F S2x512x512 .f32 := matmul dot_S2x512x128_S2x512x128_S2x512x512_2_2_1_1_0_0 none v34 v36 cst_10
  v39

/-- The products scaled by the inverse root of the row degree where the adjacency entry is not zero, the named
    constant elsewhere. -/
def logits (v39 : FVec F S2x512x512 .f32) (v40 : FVec F S2x512x512 .f32) (v41 : FVec F S2x512x512 .f32) : FVec F S2x512x512 .f32 :=
  have v42 : IVec S2x512x512 1 := cmpf .one v40 v41
  have v43 : FVec F S2x512 .f32 := multiReduction .add [2] S2x512 v40 0x00000000#32 reduces_S2x512x512_S2x512 (.inl rfl) rfl
  have v44 : FVec F S2x512x1 .f32 := shapeCast S2x512x1 v43 shapeCasts_S2x512_S2x512x1
  have v45 : FVec F S2x512x1 .f32 := rsqrt v44
  have v46 : FVec F S2x512x512 .f32 := broadcastTo S2x512x512 v45 broadcasts_S2x512x1_S2x512x512
  have v47 : FVec F S2x512x512 .f32 := mulf v39 v46
  have cst_16 : F .f32 := Named.named κ "neg_big" 0xF149F2CA#32
  have v48 : FVec F S2x512x512 .f32 := broadcast S2x512x512 cst_16
  have v49 : FVec F S2x512x512 .f32 := select v42 v47 v48
  v49

/-- Each row's exponentials of the differences to the row maximum, divided by their sum. -/
def attn (v49 : FVec F S2x512x512 .f32) : FVec F S2x512x512 .f32 :=
  have v50 : FVec F S2x512 .f32 := multiReduction .maximumf [2] S2x512 v49 0xFF800000#32 reduces_S2x512x512_S2x512 (.inl rfl) rfl
  have v51 : FVec F S2x512x1 .f32 := shapeCast S2x512x1 v50 shapeCasts_S2x512_S2x512x1
  have v52 : FVec F S2x512x512 .f32 := broadcastTo S2x512x512 v51 broadcasts_S2x512x1_S2x512x512
  have v53 : FVec F S2x512x512 .f32 := subf v49 v52
  have v54 : FVec F S2x512x512 .f32 := exp v53
  have v55 : FVec F S2x512 .f32 := multiReduction .add [2] S2x512 v54 0x00000000#32 reduces_S2x512x512_S2x512 (.inl rfl) rfl
  have v56 : FVec F S2x512x1 .f32 := shapeCast S2x512x1 v55 shapeCasts_S2x512_S2x512x1
  have v57 : FVec F S2x512x512 .f32 := broadcastTo S2x512x512 v56 broadcasts_S2x512x1_S2x512x512
  have v58 : FVec F S2x512x512 .f32 := divf v54 v57
  v58

/-- The weights times the values, per subgraph. -/
def mix (v58 : FVec F S2x512x512 .f32) (v38 : FVec F S2x512x128 .bf16) : FVec F S2x512x128 .f32 :=
  have v59 : FVec F S2x512x512 .bf16 := truncf .bf16 v58 bitsLt_bf16_f32
  have cst_19 : FVec F S2x512x128 .f32 := constant S2x512x128 .f32 0x00000000#32
  have v60 : FVec F S2x512x128 .f32 := matmul dot_S2x512x512_S2x512x128_S2x512x128_2_1_1_2_0_0 none v59 v38 cst_19
  v60

/-- Rows normalised and cut at zero again, re-laid as 1024 rows. -/
def hs (v60 : FVec F S2x512x128 .f32) : FVec F S1024x128 .bf16 :=
  have v61 : FVec F S2x512 .f32 := multiReduction .add [2] S2x512 v60 0x00000000#32 reduces_S2x512x128_S2x512 (.inl rfl) rfl
  have v62 : FVec F S2x512x1 .f32 := shapeCast S2x512x1 v61 shapeCasts_S2x512_S2x512x1
  have cst_21 : F .f32 := Scalar.ofBits .f32 0x43000000#32
  have v63 : FVec F S2x512x1 .f32 := broadcast S2x512x1 cst_21
  have v64 : FVec F S2x512x1 .f32 := divf v62 v63
  have v65 : FVec F S2x512x128 .f32 := broadcastTo S2x512x128 v64 broadcasts_S2x512x1_S2x512x128
  have v66 : FVec F S2x512x128 .f32 := subf v60 v65
  have v67 : FVec F S2x512x128 .f32 := mulf v66 v66
  have v68 : FVec F S2x512 .f32 := multiReduction .add [2] S2x512 v67 0x00000000#32 reduces_S2x512x128_S2x512 (.inl rfl) rfl
  have v69 : FVec F S2x512x1 .f32 := shapeCast S2x512x1 v68 shapeCasts_S2x512_S2x512x1
  have cst_23 : F .f32 := Scalar.ofBits .f32 0x43000000#32
  have v70 : FVec F S2x512x1 .f32 := broadcast S2x512x1 cst_23
  have v71 : FVec F S2x512x1 .f32 := divf v69 v70
  have v72 : FVec F S2x512x128 .f32 := broadcastTo S2x512x128 v64 broadcasts_S2x512x1_S2x512x128
  have v73 : FVec F S2x512x128 .f32 := subf v60 v72
  have cst_24 : F .f32 := Scalar.ofBits .f32 0x3727C5AC#32
  have v74 : FVec F S2x512x1 .f32 := broadcast S2x512x1 cst_24
  have v75 : FVec F S2x512x1 .f32 := addf v71 v74
  have v76 : FVec F S2x512x1 .f32 := rsqrt v75
  have v77 : FVec F S2x512x128 .f32 := broadcastTo S2x512x128 v76 broadcasts_S2x512x1_S2x512x128
  have v78 : FVec F S2x512x128 .f32 := mulf v73 v77
  have cst_25 : F .f32 := Scalar.ofBits .f32 0x00000000#32
  have v79 : FVec F S2x512x128 .f32 := broadcast S2x512x128 cst_25
  have v80 : FVec F S2x512x128 .f32 := maximumf v78 v79
  have v81 : FVec F S2x512x128 .bf16 := truncf .bf16 v80 bitsLt_bf16_f32
  have v82 : FVec F S1024x128 .bf16 := shapeCast S1024x128 v81 shapeCasts_S2x512x128_S1024x128
  v82

/-- The output projection plus its bias, added to the block. -/
def out (v0 : FVec F S1024x128 .f32) (v82 : FVec F S1024x128 .bf16) (v83 : FVec F S128x128 .bf16) (v86 : FVec F S128 .f32) : FVec F S1024x128 .f32 :=
  have v84 : FVec F S128x128 .bf16 := shapeCast S128x128 v83 shapeCasts_S128x128_S128x128
  have cst_28 : FVec F S1024x128 .f32 := constant S1024x128 .f32 0x00000000#32
  have v85 : FVec F S1024x128 .f32 := matmul dot_S1024x128_S128x128_S1024x128_1_0_0_1_n_n none v82 v84 cst_28
  have v87 : FVec F S1x128 .f32 := shapeCast S1x128 v86 shapeCasts_S128_S1x128
  have v88 : FVec F S1024x128 .f32 := broadcastTo S1024x128 v87 broadcasts_S1x128_S1024x128
  have v89 : FVec F S1024x128 .f32 := addf v85 v88
  have v90 : FVec F S1024x128 .f32 := addf v0 v89
  v90

/-- The stored value is the composition of the stretches. -/
theorem stored_eq (v0 : Vec F S1024x128 .f32) (v40 : Vec F S2x512x512 .f32) (v22 : Vec F S128x384 .bf16) (v25 : Vec F S384 .f32)
    (v83 : Vec F S128x128 .bf16) (v86 : Vec F S128 .f32) :
    Frm.stored v0 v40 v22 v25 v83 v86
      = out v0 (hs (mix (attn (logits (scores (part ![0, 0] slices_S1024x384_o0_0_S1024x128 (qkv (xs v0) v22 v25))
              (part ![0, 128] slices_S1024x384_o0_128_S1024x128 (qkv (xs v0) v22 v25))) v40 (k0_pay5 (F := F))))
            (part ![0, 256] slices_S1024x384_o0_256_S1024x128 (qkv (xs v0) v22 v25)))) v83 v86 := rfl

end Cert.KernelIdeal.KS

end
-- ==== Proof.Idx.lean ====
/-
  Where a block's entries sit in the whole arrays: point `t` of the 96 handles rows `1024 t … 1024 t + 1023` of the
  98304 rows, which are the nodes of subgraphs `2 t` and `2 t + 1` (512 nodes each); row `r` of the block is node
  `r % 512` of its subgraph `r / 512`.
-/
import Idealize.ShloMosaic.Lib.ValueIdx

namespace Cert.Proof.Ix

/-- The global row of row `r` of block `t`. -/
def gRow (t : Fin 96) (r : Fin 1024) : Fin 98304 := ⟨1024 * t.val + r.val, by have := t.isLt; have := r.isLt; omega⟩
/-- The global subgraph of subgraph `b` of block `t`. -/
def gSub (t : Fin 96) (b : Fin 2) : Fin 192 := ⟨2 * t.val + b.val, by have := t.isLt; have := b.isLt; omega⟩
/-- Node `i` of the block's subgraph `b` is the block's row `512 b + i`. -/
def row (b : Fin 2) (i : Fin 512) : Fin 1024 := ⟨512 * b.val + i.val, by have := b.isLt; have := i.isLt; omega⟩

theorem gRow_val (t : Fin 96) (r : Fin 1024) : (gRow t r).val = 1024 * t.val + r.val := rfl
theorem gSub_val (t : Fin 96) (b : Fin 2) : (gSub t b).val = 2 * t.val + b.val := rfl
theorem row_val (b : Fin 2) (i : Fin 512) : (row b i).val = 512 * b.val + i.val := rfl
/-- The global row of node `i` of the block's subgraph `b` is node `i` of the global subgraph. -/
theorem gRow_row_val (t : Fin 96) (b : Fin 2) (i : Fin 512) : (gRow t (row b i)).val = 512 * (gSub t b).val + i.val := by
  simp only [gRow_val, gSub_val, row_val]; omega

end Cert.Proof.Ix
-- ==== Proof.KernelValue.lean ====
/-
  What the result array holds after the run, read off the frame: point `t` writes back, over rows
  `1024 t … 1024 t + 1023`, the body's stored value of the six blocks it found; the 96 row ranges tile the 98304
  rows; so the array is any function `G` of which every point's stored value is the block. Also: what the six
  blocks are, entry by entry, in terms of the ten arguments — the rows of `x` and the two subgraphs of `adj` at
  the point, and (whatever the point) the fused weight `[Wqᵀ | Wkᵀ | Wvᵀ]`, the fused bias `[bq | bk | bv]`, `Woᵀ`
  and `bo`, which the host operations in front of the grid assemble.
-/
import proofs.«163115_j56324201120151_2_alg».proof.Proof.FrameIdeal
import proofs.«163115_j56324201120151_2_alg».proof.Proof.KStages
import proofs.«163115_j56324201120151_2_alg».proof.Proof.Idx
import Idealize.ShloMosaic.Lib.Pipeline.Value
import Idealize.ShloMosaic.Lib.StableHlo.Run
import Idealize.ShloMosaic.Lib.ValueIdx

noncomputable section

namespace Cert.KernelIdeal.Val

open Cert.KernelIdeal Cert.KernelIdeal.Gen Cert.KernelIdeal.Frm Idealize.ShloMosaic Idealize.ShloMosaic.TcCoe Idealize.SL.Sem
open Idealize.ShloMosaic.StableHlo Idealize.ShloMosaic.ValueIdx Cert.Proof.Ix
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The point as a number below 96. -/
def pt (t : Fin cfg0.N) : Fin 96 := ⟨t.val, by have h := t.isLt; have hN : cfg0.N = 96 := N_0; omega⟩

/-- The block index of every window at every point: the point itself along the rows of `x`, the subgraphs of
    `adj` and the rows of the result; zero everywhere else. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The blocks, entry by entry -/

/-- Row `r` of the `x` block at point `t` is row `1024 t + r` of `x`. -/
theorem blk_x (c : Dev nD) (t : Fin cfg0.N) (r : Fin 1024) (e : Fin 128) :
    (iblk m c 0 t : Vec Ideal S1024x128 .f32) (ix2 r e) = (m ((c : Thread nD τ).loc main_arg0) : S98304x128.Idx → EReal) (ix2 (gRow (pt t) r) e) := by
  obtain ⟨e0, e1, -⟩ := idx_facts t
  unfold iblk
  rw [View.read_apply]
  show V m c main_arg0 _ = _
  rw [V_main_arg0]
  refine congrArg (m ((c : Thread nD τ).loc main_arg0) : S98304x128.Idx → EReal) ?_
  funext a
  apply Fin.ext
  match a with
  | ⟨0, _⟩ => show win0_0.index t (0 : Fin 2) * 1024 + 1 * r.val = 1024 * t.val + r.val; rw [e0]; omega
  | ⟨1, _⟩ => show win0_0.index t (1 : Fin 2) * 128 + 1 * e.val = e.val; rw [e1]; omega

/-- Subgraph `b` of the `adj` block at point `t` is subgraph `2 t + b` of `adj`. -/
theorem blk_adj (c : Dev nD) (t : Fin cfg0.N) (b : Fin 2) (i j : Fin 512) :
    (iblk m c 1 t : Vec Ideal S2x512x512 .f32) (ix3 b i j) = (m ((c : Thread nD τ).loc main_arg1) : S192x512x512.Idx → EReal) (ix3 (gSub (pt t) b) i j) := by
  obtain ⟨-, -, e0, e1, e2, -⟩ := idx_facts t
  unfold iblk
  rw [View.read_apply]
  show V m c main_arg1 _ = _
  rw [V_main_arg1]
  refine congrArg (m ((c : Thread nD τ).loc main_arg1) : S192x512x512.Idx → EReal) ?_
  funext a
  apply Fin.ext
  match a with
  | ⟨0, _⟩ => show win0_1.index t (0 : Fin 3) * 2 + 1 * b.val = 2 * t.val + b.val; rw [e0]; omega
  | ⟨1, _⟩ => show win0_1.index t (1 : Fin 3) * 512 + 1 * i.val = i.val; rw [e1]; omega
  | ⟨2, _⟩ => show win0_1.index t (2 : Fin 3) * 512 + 1 * j.val = j.val; rw [e2]; omega

/-- The bias block is `bo`, whatever the point. -/
theorem blk_bo (c : Dev nD) (t : Fin cfg0.N) (g : Fin 128) :
    (iblk m c 5 t : Vec Ideal S128 .f32) (ix1 g) = (m ((c : Thread nD τ).loc main_arg9) : S128.Idx → EReal) (ix1 g) := by
  obtain ⟨-, -, -, -, -, -, -, -, -, -, e0, -⟩ := idx_facts t
  unfold iblk
  rw [View.read_apply]
  show V m c main_arg9 _ = _
  rw [V_main_arg9]
  refine congrArg (m ((c : Thread nD τ).loc main_arg9) : S128.Idx → EReal) ?_
  funext a
  apply Fin.ext
  match a with
  | ⟨0, _⟩ => show win0_5.index t (0 : Fin 1) * 128 + 1 * g.val = g.val; rw [e0]; omega

end Cert.KernelIdeal.Val

end
-- ==== Proof.KernelRun.lean ====
/-
  The run of the idealized kernel, read: every point writes back the stored value of its six blocks over its own
  1024 rows, the 96 row ranges tile the result array, so the array ends at any function `G` whose block at every
  point is that point's stored value; the ten arguments end as they began.
-/
import proofs.«163115_j56324201120151_2_alg».proof.Proof.KernelValue

noncomputable section

namespace Cert.KernelIdeal.Val

open Cert.KernelIdeal Cert.KernelIdeal.Gen Cert.KernelIdeal.Frm Idealize.ShloMosaic Idealize.ShloMosaic.TcCoe Idealize.SL.Sem
open Idealize.ShloMosaic.StableHlo Idealize.ShloMosaic.ValueIdx Cert.Proof.Ix
open Idealize.ShloMosaic.Pipeline (Dat)

variable (m : (ℓ : Loc nD τ sig) → Buf (Elt Ideal) ℓ) (ρ : Dev nD → PrngReg)

/-- The stored value of the six blocks at point `t`. -/
def storedAt (c : Dev nD) (t : Fin cfg0.N) : Vec Ideal S1024x128 .f32 :=
  stored (iblk m c 0 t) (iblk m c 1 t) (iblk m c 2 t) (iblk m c 3 t) (iblk m c 4 t) (iblk m c 5 t)

/-- What point `t` writes back: the body's one store covers the output buffer and its loads read the input
    buffers whole. -/
theorem flushed6 (c : Dev nD) (t : Fin cfg0.N) : (dats m 0 c).flushed 6 t = storedAt m c t := by
  show (cfg0.win 6).cut (grid0.coords t) ((dats m 0 c).after 6 t) = _
  rw [after6]
  unfold out6 storedAt
  rw [View.canon_unit_zero hz2]
  simp only [View.ld_unit_zero (S := S1024x128) hz2, View.ld_unit_zero (S := S2x512x512) hz3, View.ld_unit_zero (S := S128x384) hz2,
    View.ld_unit_zero (S := S384) hz1, View.ld_unit_zero (S := S128x128) hz2, View.ld_unit_zero (S := S128) hz1]
  rfl

/-- An index of the result array is in point `t`'s block iff each coordinate is in the block's range. -/
theorem mem_blk6 (t : Fin cfg0.N) (i : S98304x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v8).slice (win0_6.rect t)).set ↔ _
  rw [View.set_slice_whole, Rect.mem_set_unit]
  exact Iff.rfl

/-- Row `n` is written back by point `n / 1024`. -/
theorem cover6 (i : S98304x128.Idx) : ∃ t : Fin cfg0.N, (cfg0.win 6).flush t = true ∧ i ∈ ((cfg0.win 6).blk t).view.set := by
  have hi0 : (i 0).val < 98304 := (i 0).isLt
  have hi1 : (i 1).val < 128 := (i 1).isLt
  have hN : cfg0.N = 96 := N_0
  refine ⟨⟨(i 0).val / 1024, by omega⟩, flush0_6 _, ?_⟩
  rw [mem_blk6]
  obtain ⟨-, -, -, -, -, -, -, -, -, -, -, e0, e1⟩ := idx_facts ⟨(i 0).val / 1024, by omega⟩
  intro a
  match a with
  | ⟨0, _⟩ =>
    show win0_6.index ⟨(i 0).val / 1024, _⟩ (0 : Fin 2) * 1024 ≤ (i 0).val ∧ (i 0).val < win0_6.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, _⟩ (1 : Fin 2) * 128 ≤ (i 1).val ∧ (i 1).val < win0_6.index ⟨(i 0).val / 1024, _⟩ (1 : Fin 2) * 128 + 128
    rw [e1]; omega

/-- If every point's stored value is the point's block of `G`, the write-back is the block of `G`. -/
theorem flushed_eq (c : Dev nD) (G : S98304x128.Idx → EReal)
    (hG : ∀ (t : Fin cfg0.N) (r : Fin 1024) (g : Fin 128), storedAt m c t (ix2 r g) = G (ix2 (gRow (pt t) r) g)) (t : Fin cfg0.N) :
    (dats m 0 c).flushed 6 t = ((cfg0.win 6).blk t).view.read (Elt Ideal) G := by
  rw [flushed6]
  funext y
  obtain ⟨r, g, rfl⟩ : ∃ (r : Fin 1024) (g : Fin 128), y = ix2 r g := ⟨y 0, y 1, eq_ix2 y⟩
  rw [View.read_apply]
  refine (hG t r g).trans (congrArg G ?_)
  obtain ⟨-, -, -, -, -, -, -, -, -, -, -, e0, e1⟩ := idx_facts t
  funext a
  apply Fin.ext
  match a with
  | ⟨0, _⟩ => show 1024 * t.val + r.val = win0_6.index t (0 : Fin 2) * 1024 + 1 * r.val; rw [e0]; omega
  | ⟨1, _⟩ => show g.val = win0_6.index t (1 : Fin 2) * 128 + 1 * g.val; rw [e1]; omega

/-- So the result array ends at `G`. -/
theorem final6 (c : Dev nD) (G : S98304x128.Idx → EReal)
    (hG : ∀ (t : Fin cfg0.N) (r : Fin 1024) (g : Fin 128), storedAt m c t (ix2 r g) = G (ix2 (gRow (pt t) r) g)) :
    (dats m 0 c).arrAt 6 cfg0.N = G :=
  (dats m 0 c).arrAt_eq_of_cover 6 G (fun t _ => flushed_eq m c G hG t) cover6

/-- The run, read: the result array at `G`, the ten arguments unchanged. -/
theorem run (G : Dev nD → S98304x128.Idx → EReal)
    (hG : ∀ (c : Dev nD) (t : Fin cfg0.N) (r : Fin 1024) (g : Fin 128), storedAt m c t (ix2 r g) = G c (ix2 (gRow (pt t) r) g)) :
    θ_run defs (onTc (τ := τ) (main (F := Ideal))) ⟨m, fun _ => 0, ρ⟩ (fun r => ∀ c : Dev nD,
      r.2.mem ((c.tc : Thread nD τ).loc main_v8) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (final6 m c (G c) (hG c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c)))⟩) (run_main m ρ)

end Cert.KernelIdeal.Val

end
-- ==== Proof.BlkHost.lean ====
/-
  What three of the grid's input blocks hold, entry by entry, in terms of the launched arguments. The host operations
  in front of the grid lay the transposes of the three projection weights side by side (the fused weight, `128 × 384`),
  lay the three projection biases end to end (the fused bias, length 384), and transpose the output weight; the two
  changes of format among them keep every entry. The windows over these three arrays have block index zero at every
  point, so each block is the whole array: column `off + f` of the fused weight block is row `f` of the weight whose
  columns start at `off`, entry `off + f` of the fused bias block is entry `f` of the matching bias, and entry `(f, g)`
  of the output weight block is entry `(g, f)` of the output weight.
-/
import proofs.«163115_j56324201120151_2_alg».proof.Proof.KernelValue
import Idealize.ShloMosaic.Lib.ValueLayout

noncomputable section
namespace Cert.KernelIdeal.Val
open Cert.KernelIdeal Cert.KernelIdeal.Gen Cert.KernelIdeal.Frm Idealize.ShloMosaic Idealize.ShloMosaic.TcCoe Idealize.SL.Sem
open Idealize.ShloMosaic.StableHlo Idealize.ShloMosaic.ValueIdx Cert.Proof.Ix

variable (m : (ℓ : Loc nD τ sig) → Buf (Elt Ideal) ℓ)

/-! ## The fused weight -/

/-- The fused weight as the grid finds it: the transposes of the three launched weights side by side (the host's
    change of format keeps every entry). -/
theorem V_main_v4_apply (c : Dev nD) (j : S128x384.Idx) :
    (V m c main_v4 : S128x384.Idx → EReal) j
      = concatenate S128x384 1
          [⟨S128x128, transpose S128x128 [1, 0] (m ((c : Thread nD τ).loc main_arg2) : S128x128.Idx → EReal) transposes_S128x128_S128x128_1_0⟩,
           ⟨S128x128, transpose S128x128 [1, 0] (m ((c : Thread nD τ).loc main_arg4) : S128x128.Idx → EReal) transposes_S128x128_S128x128_1_0⟩,
           ⟨S128x128, transpose S128x128 [1, 0] (m ((c : Thread nD τ).loc main_arg6) : S128x128.Idx → EReal) transposes_S128x128_S128x128_1_0⟩]
          concatenates_S128x128_S128x128_S128x128_S128x384_d1 j := by
  dsimp only [V, hostOps0]
  after_results
  rfl

/-- Entry `(e, pre + f)` of three `128 × 128` matrices laid side by side is entry `(e, f)` of piece `k`, where `pre` is
    the total width of the pieces before it. -/
theorem cat128x384_apply (xs : List ((s : Shape) × (s.Idx → EReal))) (h : Shape.Concatenates (xs.map (·.1)) S128x384 1)
    (k : Nat) (hk : k < xs.length) (x₁ : S128x128.Idx → EReal) (hxk : xs[k] = ⟨S128x128, x₁⟩) (pre : Nat)
    (hpre : (((xs.take k).map (·.1)).map fun s => if h : s.rank = S128x384.rank then s.size ((1 : Fin S128x384.rank).cast h.symm) else 0).sum = pre)
    (e f : Fin 128) (j : Fin 384) (hj : pre + f.val = j.val) :
    concatenate S128x384 1 xs h (ix2 e j) = x₁ (ix2 e f) :=
  concatenate_apply_piece (1 : Fin S128x384.rank) xs h (ix2 e j) k hk S128x128 x₁ hxk rfl pre hpre (ix2 e f)
    (fun b => match b with
      | ⟨0, _⟩ => fun _ => rfl
      | ⟨1, _⟩ => fun hb => absurd rfl hb) hj

/-- The block of window 2 at any point is the whole fused weight. -/
theorem blk2_eq (c : Dev nD) (t : Fin cfg0.N) (e : Fin 128) (j : Fin 384) :
    (iblk m c 2 t : Vec Ideal S128x384 .bf16) (ix2 e j) = (V m c main_v4 : S128x384.Idx → EReal) (ix2 e j) := by
  obtain ⟨-, -, -, -, -, e0, e1, -⟩ := idx_facts t
  unfold iblk
  rw [View.read_apply]
  show V m c main_v4 _ = _
  refine congrArg (V m c main_v4 : S128x384.Idx → EReal) ?_
  funext a
  apply Fin.ext
  match a with
  | ⟨0, _⟩ => show win0_2.index t (0 : Fin 2) * 128 + 1 * e.val = e.val; rw [e0]; omega
  | ⟨1, _⟩ => show win0_2.index t (1 : Fin 2) * 384 + 1 * j.val = j.val; rw [e1]; omega

/-- Column `f` of the fused weight is row `f` of `Wq` (the weight's first 128 columns are `Wqᵀ`). -/
theorem blk_wq (c : Dev nD) (t : Fin cfg0.N) (e f : Fin 128) :
    (iblk m c 2 t : Vec Ideal S128x384 .bf16) (ix2 e (⟨f.val, by omega⟩ : Fin 384)) = (m ((c : Thread nD τ).loc main_arg2) : S128x128.Idx → EReal) (ix2 f e) := by
  rw [blk2_eq, V_main_v4_apply]
  exact (cat128x384_apply _ _ 0 (by show (0 : Nat) < 3; omega) _ rfl 0 rfl e f _ (Nat.zero_add _)).trans
    (transpose_ix2_apply _ _ e f)
/-- Column `128 + f` of the fused weight is row `f` of `Wk`. -/
theorem blk_wk (c : Dev nD) (t : Fin cfg0.N) (e f : Fin 128) :
    (iblk m c 2 t : Vec Ideal S128x384 .bf16) (ix2 e (⟨128 + f.val, by omega⟩ : Fin 384)) = (m ((c : Thread nD τ).loc main_arg4) : S128x128.Idx → EReal) (ix2 f e) := by
  rw [blk2_eq, V_main_v4_apply]
  exact (cat128x384_apply _ _ 1 (by show (1 : Nat) < 3; omega) _ rfl 128 rfl e f _ rfl).trans
    (transpose_ix2_apply _ _ e f)
/-- Column `256 + f` of the fused weight is row `f` of `Wv`. -/
theorem blk_wv (c : Dev nD) (t : Fin cfg0.N) (e f : Fin 128) :
    (iblk m c 2 t : Vec Ideal S128x384 .bf16) (ix2 e (⟨256 + f.val, by omega⟩ : Fin 384)) = (m ((c : Thread nD τ).loc main_arg6) : S128x128.Idx → EReal) (ix2 f e) := by
  rw [blk2_eq, V_main_v4_apply]
  exact (cat128x384_apply _ _ 2 (by show (2 : Nat) < 3; omega) _ rfl 256 rfl e f _ rfl).trans
    (transpose_ix2_apply _ _ e f)

/-! ## The fused bias -/

/-- The fused bias as the grid finds it: the three launched biases laid end to end. -/
theorem V_main_v5_apply (c : Dev nD) (j : S384.Idx) :
    (V m c main_v5 : S384.Idx → EReal) j
      = concatenate S384 0 [⟨S128, (m ((c : Thread nD τ).loc main_arg3) : S128.Idx → EReal)⟩,
          ⟨S128, (m ((c : Thread nD τ).loc main_arg5) : S128.Idx → EReal)⟩,
          ⟨S128, (m ((c : Thread nD τ).loc main_arg7) : S128.Idx → EReal)⟩] concatenates_S128_S128_S128_S384_d0 j := by
  dsimp only [V, hostOps0]
  after_results
  rfl

/-- Entry `pre + f` of three vectors of length 128 laid end to end is entry `f` of piece `k`, where `pre` is the
    total length of the pieces before it. -/
theorem cat384_apply (xs : List ((s : Shape) × (s.Idx → EReal))) (h : Shape.Concatenates (xs.map (·.1)) S384 0)
    (k : Nat) (hk : k < xs.length) (x₁ : S128.Idx → EReal) (hxk : xs[k] = ⟨S128, x₁⟩) (pre : Nat)
    (hpre : (((xs.take k).map (·.1)).map fun s => if h : s.rank = S384.rank then s.size ((0 : Fin S384.rank).cast h.symm) else 0).sum = pre)
    (f : Fin 128) (j : Fin 384) (hj : pre + f.val = j.val) :
    concatenate S384 0 xs h (ix1 j) = x₁ (ix1 f) :=
  concatenate_apply_piece (0 : Fin S384.rank) xs h (ix1 j) k hk S128 x₁ hxk rfl pre hpre (ix1 f)
    (fun b hb => absurd (Subsingleton.elim _ _) hb) hj

/-- The block of window 3 at any point is the whole fused bias. -/
theorem blk3_eq (c : Dev nD) (t : Fin cfg0.N) (j : Fin 384) :
    (iblk m c 3 t : Vec Ideal S384 .f32) (ix1 j) = (V m c main_v5 : S384.Idx → EReal) (ix1 j) := by
  obtain ⟨-, -, -, -, -, -, -, e0, -⟩ := idx_facts t
  unfold iblk
  rw [View.read_apply]
  show V m c main_v5 _ = _
  refine congrArg (V m c main_v5 : S384.Idx → EReal) ?_
  funext a
  apply Fin.ext
  match a with
  | ⟨0, _⟩ => show win0_3.index t (0 : Fin 1) * 384 + 1 * j.val = j.val; rw [e0]; omega

/-- Entry `f` of the fused bias is entry `f` of `bq`. -/
theorem blk_bq (c : Dev nD) (t : Fin cfg0.N) (f : Fin 128) :
    (iblk m c 3 t : Vec Ideal S384 .f32) (ix1 (⟨f.val, by omega⟩ : Fin 384)) = (m ((c : Thread nD τ).loc main_arg3) : S128.Idx → EReal) (ix1 f) := by
  rw [blk3_eq, V_main_v5_apply]
  exact cat384_apply _ _ 0 (by show (0 : Nat) < 3; omega) _ rfl 0 rfl f _ (Nat.zero_add _)
/-- Entry `128 + f` of the fused bias is entry `f` of `bk`. -/
theorem blk_bk (c : Dev nD) (t : Fin cfg0.N) (f : Fin 128) :
    (iblk m c 3 t : Vec Ideal S384 .f32) (ix1 (⟨128 + f.val, by omega⟩ : Fin 384)) = (m ((c : Thread nD τ).loc main_arg5) : S128.Idx → EReal) (ix1 f) := by
  rw [blk3_eq, V_main_v5_apply]
  exact cat384_apply _ _ 1 (by show (1 : Nat) < 3; omega) _ rfl 128 rfl f _ rfl
/-- Entry `256 + f` of the fused bias is entry `f` of `bv`. -/
theorem blk_bv (c : Dev nD) (t : Fin cfg0.N) (f : Fin 128) :
    (iblk m c 3 t : Vec Ideal S384 .f32) (ix1 (⟨256 + f.val, by omega⟩ : Fin 384)) = (m ((c : Thread nD τ).loc main_arg7) : S128.Idx → EReal) (ix1 f) := by
  rw [blk3_eq, V_main_v5_apply]
  exact cat384_apply _ _ 2 (by show (2 : Nat) < 3; omega) _ rfl 256 rfl f _ rfl

/-! ## The output weight -/

/-- The output weight as the grid finds it, at `(f, g)`: the launched one at `(g, f)` (the host transposes it, then
    changes its format, which keeps every entry). -/
theorem V_main_v7_apply (c : Dev nD) (f g : Fin 128) :
    (V m c main_v7 : S128x128.Idx → EReal) (ix2 f g) = (m ((c : Thread nD τ).loc main_arg8) : S128x128.Idx → EReal) (ix2 g f) := by
  dsimp only [V, hostOps0]
  after_results
  exact transpose_ix2_apply _ _ f g

/-- The output weight block is `Woᵀ`. -/
theorem blk_wo (c : Dev nD) (t : Fin cfg0.N) (f g : Fin 128) :
    (iblk m c 4 t : Vec Ideal S128x128 .bf16) (ix2 f g) = (m ((c : Thread nD τ).loc main_arg8) : S128x128.Idx → EReal) (ix2 g f) := by
  obtain ⟨-, -, -, -, -, -, -, -, e0, e1, -⟩ := idx_facts t
  unfold iblk
  rw [View.read_apply]
  show V m c main_v7 _ = _
  refine (congrArg (V m c main_v7 : S128x128.Idx → EReal) (?_ : _ = ix2 f g)).trans (V_main_v7_apply m c f g)
  funext a
  apply Fin.ext
  match a with
  | ⟨0, _⟩ => show win0_4.index t (0 : Fin 2) * 128 + 1 * f.val = f.val; rw [e0]; omega
  | ⟨1, _⟩ => show win0_4.index t (1 : Fin 2) * 128 + 1 * g.val = g.val; rw [e1]; omega

end Cert.KernelIdeal.Val
end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.SecC.lean ====
import proofs.«163115_j56324201120151_2_alg».proof.Proof.KStages
import proofs.«163115_j56324201120151_2_alg».proof.Proof.RefReadP
import proofs.«163115_j56324201120151_2_alg».proof.Proof.Idx
import proofs.«163115_j56324201120151_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section
namespace Cert.Proof.SecC
open Idealize.ShloMosaic Idealize.ShloMosaic.ValueIdx Cert.Proof.Ix
open Cert.KernelIdeal (S1024x128 S2x512x512 S2x512x128 S128x384 S384 S128x128 S128 S98304x128 S192x512x512)
open Cert.KernelIdeal.Gen (slices_S1024x384_o0_0_S1024x128 slices_S1024x384_o0_128_S1024x128 slices_S1024x384_o0_256_S1024x128 k0_pay5)
namespace RI
export Cert.ReferenceIdeal.ReadP (val_main_v18 val_main_v23 val_main_v27 val_main_v31 val_main_v51 val_main_v72 val_main_v78)
end RI
open Cert.KernelIdeal

variable (t : Fin 96)
variable (X : FVec Ideal S98304x128 .f32) (A : FVec Ideal S192x512x512 .f32)
  (Wq : FVec Ideal S128x128 .f32) (bq : FVec Ideal S128 .f32) (Wk : FVec Ideal S128x128 .f32) (bk : FVec Ideal S128 .f32)
  (Wv : FVec Ideal S128x128 .f32) (bv : FVec Ideal S128 .f32) (Wo : FVec Ideal S128x128 .f32) (bo : FVec Ideal S128 .f32)

open scoped BigOperators

/-! ## Layout: a row statistic kept as a column, and spread back along the row -/

/-- An `[a, b]` array cast to an `[a, b, 1]` array reads, at `(p, q, u)`, the array at `(p, q)`, whatever the unit
    coordinate `u`: both positions have the same row-major offset. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast along its unit axis to `[a, b, c]` reads, at `(p, q, r)`, its entry at `(p, q, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The index `(p, q)` with `k` inserted on the last axis is `(p, q, k)`. -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext ax; apply Fin.ext
  match ax with
  | ⟨0, _⟩ => rfl
  | ⟨1, _⟩ => rfl
  | ⟨2, _⟩ => rfl

/-! ## Extended reals: the two fill values are the bottom element, and the one law of this section -/

/-- The pattern of minus infinity is the bottom element. -/
theorem ofBits_neg_inf_f32 : Ideal.ofBits .f32 0xFF800000#32 = ⊥ := by simp [Ideal.ofBits, Ideal.ieee]

/-- The named fill value is the bottom element. -/
theorem named_neg_big : Named.named (F := Ideal) κ "neg_big" (φ := .f32) 0xF149F2CA#32 = ⊥ :=
  IdealRules.named_const.ideal_named_scalar κ "neg_big" _ ⊥ rfl

/-- For a positive `d` (finite or `⊤`), multiplying by the inverse root is dividing by the root. -/
theorem mul_rsqrt_eq_div_sqrt (a d : EReal) (hd : 0 < d) : a * Ideal.rsqrt d = Ideal.div a (Ideal.sqrt d) := by
  induction d using EReal.rec with
  | bot => exact absurd hd (not_lt_bot)
  | coe r =>
    have hr : 0 < r := EReal.coe_pos.mp hd
    have hs : 0 < Real.sqrt r := Real.sqrt_pos.mpr hr
    rw [Ideal.rsqrt_coe, Ideal.sqrt_coe, if_neg (not_lt.mpr hr.le), if_neg hr.ne', if_neg (not_lt.mpr hr.le)]
    unfold Ideal.div
    rw [if_neg (by exact_mod_cast hs.ne'), EReal.coe_inv]
  | top =>
    rw [Ideal.rsqrt_top, Ideal.sqrt_top, mul_zero]
    unfold Ideal.div
    rw [if_neg (by decide), EReal.inv_top, mul_zero]

/-! ## The query-key products -/

section Scores

/-- The kernel's product record: batch axis 0 on both sides, contraction over the last axis of both. -/
abbrev DK : DotDims S2x512x128 S2x512x128 S2x512x512 := dot_S2x512x128_S2x512x128_S2x512x512_2_2_1_1_0_0

theorem lhsK_0 (i : S2x512x512.Idx) (q : DK.contr.Idx) : (DK.lhsIdx i q 0).val = (i 0).val := by
  unfold DotDims.lhsIdx
  rw [dif_pos (show (0 : Fin S2x512x128.rank) ∈ DK.lhsBatch by decide)]
  rfl
theorem lhsK_1 (i : S2x512x512.Idx) (q : DK.contr.Idx) : (DK.lhsIdx i q 1).val = (i 1).val := by
  unfold DotDims.lhsIdx
  rw [dif_neg (show ¬(1 : Fin S2x512x128.rank) ∈ DK.lhsBatch by decide),
    dif_pos (show (1 : Fin S2x512x128.rank) ∈ DK.lhsNonContracting by decide)]
  rfl
theorem lhsK_2 (i : S2x512x512.Idx) (q : DK.contr.Idx) : (DK.lhsIdx i q 2).val = (q ⟨0, by decide⟩).val :=
  DK.lhsIdx_val_of_single rfl i q
theorem rhsK_0 (i : S2x512x512.Idx) (q : DK.contr.Idx) : (DK.rhsIdx i q 0).val = (i 0).val := by
  unfold DotDims.rhsIdx
  rw [dif_pos (show (0 : Fin S2x512x128.rank) ∈ DK.rhsBatch by decide)]
  rfl
theorem rhsK_1 (i : S2x512x512.Idx) (q : DK.contr.Idx) : (DK.rhsIdx i q 1).val = (i 2).val := by
  unfold DotDims.rhsIdx
  rw [dif_neg (show ¬(1 : Fin S2x512x128.rank) ∈ DK.rhsBatch by decide),
    dif_pos (show (1 : Fin S2x512x128.rank) ∈ DK.rhsNonContracting by decide)]
  rfl
theorem rhsK_2 (i : S2x512x512.Idx) (q : DK.contr.Idx) : (DK.rhsIdx i q 2).val = (q ⟨0, by decide⟩).val :=
  DK.rhsIdx_val_of_single rfl i q

/-- Entry `(b, i, j)` of the kernel's products is `∑ f, q (b, i, f) * k (b, j, f)`. -/
theorem scores_apply (q3 k3 : FVec Ideal S2x512x128 .bf16) (b : Fin 2) (i j : Fin 512) :
    KS.scores (F := Ideal) q3 k3 (ix3 b i j) = ∑ f : Fin 128, q3 (ix3 b i f) * k3 (ix3 b j f) := by
  unfold KS.scores
  refine (Ideal.matmul_constant_zero_apply DK none q3 k3 (ix3 b i j)).trans ?_
  rw [← Equiv.sum_comp (contrEquiv1 DK 128 rfl rfl).symm]
  refine Finset.sum_congr rfl fun f _ => ?_
  have hk := contrEquiv1_symm_val DK 128 rfl rfl f
  have el : DK.lhsIdx (ix3 b i j) ((contrEquiv1 DK 128 rfl rfl).symm f) = ix3 b i f := funext fun a => Fin.ext (by
    match a with
    | ⟨0, _⟩ => exact lhsK_0 _ _
    | ⟨1, _⟩ => exact lhsK_1 _ _
    | ⟨2, _⟩ => exact (lhsK_2 _ _).trans hk)
  have er : DK.rhsIdx (ix3 b i j) ((contrEquiv1 DK 128 rfl rfl).symm f) = ix3 b j f := funext fun a => Fin.ext (by
    match a with
    | ⟨0, _⟩ => exact rhsK_0 _ _
    | ⟨1, _⟩ => exact rhsK_1 _ _
    | ⟨2, _⟩ => exact (rhsK_2 _ _).trans hk)
  rw [el, er]

end Scores

/-! ## Row sums and row maxima of a `[2, 512, 512]` block -/

/-- The maximum of a row of 512 extended reals, taken from the pattern of minus infinity. -/
def rowMax (u : Fin 512 → EReal) : EReal :=
  (Finset.univ : Finset (Fin 512)).fold max (Ideal.ofBits .f32 0xFF800000#32) u

/-- The kernel's sum over the last axis, at `(b, i)`, is `∑ k, src (b, i, k)`. -/
theorem rowSum_apply (src : FVec Ideal S2x512x512 .f32) (h : S2x512x512.Reduces [2] S2x512) (hφ : FKind.Formats .f32)
    (hacc : (0x00000000#32 : BitVec FTy.f32.bits) = FKind.add.neutral .f32 hφ) (b : Fin 2) (i : Fin 512) :
    multiReduction .add [2] S2x512 src 0x00000000#32 h hφ hacc (ix2 b i) = ∑ k : Fin 512, src (ix3 b i k) := by
  refine (Ideal.multiReduction_add_single src _ h hφ hacc (ix2 b i)).trans ?_
  exact Finset.sum_congr rfl fun k _ => congrArg src (lift_last h b i k)

/-- The kernel's maximum over the last axis, at `(b, i)`, is the maximum of the row `k ↦ src (b, i, k)`. -/
theorem rowMax_apply (src : FVec Ideal S2x512x512 .f32) (h : S2x512x512.Reduces [2] S2x512) (hφ : FKind.Formats .f32)
    (hacc : (0xFF800000#32 : BitVec FTy.f32.bits) = FKind.maximumf.neutral .f32 hφ) (b : Fin 2) (i : Fin 512) :
    multiReduction .maximumf [2] S2x512 src 0xFF800000#32 h hφ hacc (ix2 b i) = rowMax fun k => src (ix3 b i k) := by
  refine (Ideal.multiReduction_maximumf_single src _ h hφ hacc (ix2 b i)).trans ?_
  exact congrArg (fun f => Finset.fold max (Ideal.ofBits .f32 0xFF800000#32) f (Finset.univ : Finset (Fin 512)))
    (funext fun k => congrArg src (lift_last h b i k))

/-! ## The masked, degree-scaled products -/

/-- The kernel's logits at `(b, i, j)`: where the adjacency entry differs from the comparand, the product times the
    inverse root of the row sum of the adjacency block; the bottom element elsewhere. -/
theorem logits_apply (y ab z : FVec Ideal S2x512x512 .f32) (b : Fin 2) (i j : Fin 512) :
    KS.logits (F := Ideal) y ab z (ix3 b i j)
      = Scalar.select (Ideal.cmp .one (ab (ix3 b i j)) (z (ix3 b i j)))
          (y (ix3 b i j) * Ideal.rsqrt (∑ k : Fin 512, ab (ix3 b i k))) ⊥ := by
  unfold KS.logits
  rw [select_apply, mulf_apply, broadcastTo_ab1_abc_apply, broadcast_apply, named_neg_big]
  show Scalar.select _ (_ * Ideal.rsqrt (shapeCast S2x512x1 _ _ (ix3 b i (0 : Fin 1)))) ⊥ = _
  rw [shapeCast_ab_ab1_apply]
  exact congrArg (fun d => Scalar.select (Ideal.cmp .one (ab (ix3 b i j)) (z (ix3 b i j))) (y (ix3 b i j) * Ideal.rsqrt d) ⊥)
    (rowSum_apply ab _ _ _ b i)

/-! ## The reference's masked, degree-scaled products -/

section Ref
open Cert.ReferenceIdeal.ReadP

theorem lidx32_ix3 (s : Fin 192) (i j : Fin 512) (f : Fin 128) : lidx_main_v32 (ix3 s i j) f = ix3 s i f := by
  funext a; match a with | ⟨0, _⟩ => rfl | ⟨1, _⟩ => rfl | ⟨2, _⟩ => rfl
theorem ridx32_ix3 (s : Fin 192) (i j : Fin 512) (f : Fin 128) : ridx_main_v32 (ix3 s i j) f = ix3 s j f := by
  funext a; match a with | ⟨0, _⟩ => rfl | ⟨1, _⟩ => rfl | ⟨2, _⟩ => rfl
theorem idx36_ix3 (s : Fin 192) (i j : Fin 512) : idx_main_v36 (ix3 s i j) = ix3 s i (0 : Fin 1) := by
  funext a; match a with | ⟨0, _⟩ => rfl | ⟨1, _⟩ => rfl | ⟨2, _⟩ => rfl
theorem idx34_ix3 (s : Fin 192) (i : Fin 512) (u : Fin 1) : idx_main_v34 (ix3 s i u) = ix2 s i := by
  funext a; match a with | ⟨0, _⟩ => rfl | ⟨1, _⟩ => rfl
theorem idx33_ix2 (s : Fin 192) (i : Fin 512) (k : Fin 512) : idx_main_v33 (ix2 s i) k = ix3 s i k := by
  funext a; match a with | ⟨0, _⟩ => rfl | ⟨1, _⟩ => rfl | ⟨2, _⟩ => rfl

/-- The reference's logits at `(s, i, j)`: where the adjacency entry is not zero, the product `∑ f, q (s, i, f) * k (s, j, f)`
    divided by the root of the row sum of the adjacency; the bottom element elsewhere. -/
theorem ref_logits_apply (s : Fin 192) (i j : Fin 512) :
    val_main_v40 (F := Ideal) X A Wq bq Wk bk (ix3 s i j)
      = Scalar.select (Ideal.cmp .une (A (ix3 s i j)) 0)
          (Ideal.div (∑ f : Fin 128, val_main_v23 (F := Ideal) X Wq bq (ix3 s i f) * val_main_v27 (F := Ideal) X Wk bk (ix3 s j f))
            (Ideal.sqrt (∑ k : Fin 512, A (ix3 s i k)))) ⊥ := by
  rw [val_main_v40_apply, val_main_v39_apply, val_main_v38_apply, val_main_cst_5_apply, val_main_v37_apply,
    val_main_v32_apply, val_main_v36_apply, val_main_v35_apply, val_main_v34_apply, val_main_v33_apply,
    val_main_cst_4_apply, val_main_call1_v1_apply, val_main_call1_v0_apply, val_main_cst_6_apply]
  simp only [Ideal.ofBits_def, Ideal.cmpf_def, Ideal.hostDivf_def, Ideal.hostUnary_sqrt_def, Ideal.ofBits_zero_f32,
    ofBits_neg_inf_f32, zero_add, idx36_ix3, idx34_ix3, idx33_ix2, lidx32_ix3, ridx32_ix3]

end Ref

/-! ## The two logits agree -/

section Logits
open Cert.ReferenceIdeal.ReadP

/-- The kernel's comparand is the zero block. -/
theorem pay5_apply (b : Fin 2) (i j : Fin 512) : k0_pay5 (F := Ideal) (ix3 b i j) = 0 := Ideal.ofBits_zero_f32

/-- Entry by entry, the kernel's logits of block `t` are the reference's logits of subgraphs `2 t` and `2 t + 1`:
    the products agree term by term, the masks test the same entry against zero, the fill values are both the
    bottom element, and multiplying by the inverse root of the positive row degree is dividing by its root. -/
theorem logits_ref (q3 k3 : FVec Ideal S2x512x128 .bf16) (ab : FVec Ideal S2x512x512 .f32)
    (hq : ∀ (b : Fin 2) (i : Fin 512) (f : Fin 128), q3 (ix3 b i f) = RI.val_main_v23 (F := Ideal) X Wq bq (ix3 (gSub t b) i f))
    (hk : ∀ (b : Fin 2) (i : Fin 512) (f : Fin 128), k3 (ix3 b i f) = RI.val_main_v27 (F := Ideal) X Wk bk (ix3 (gSub t b) i f))
    (ha : ∀ (b : Fin 2) (i j : Fin 512), ab (ix3 b i j) = A (ix3 (gSub t b) i j))
    (hdeg : ∀ (b : Fin 2) (i : Fin 512), (0 : EReal) < ∑ j : Fin 512, A (ix3 (gSub t b) i j))
    (b : Fin 2) (i j : Fin 512) :
    KS.logits (F := Ideal) (KS.scores q3 k3) ab (k0_pay5 (F := Ideal)) (ix3 b i j)
      = val_main_v40 (F := Ideal) X A Wq bq Wk bk (ix3 (gSub t b) i j) := by
  rw [logits_apply, ref_logits_apply, scores_apply, pay5_apply]
  simp only [hq, hk, ha]
  rw [mul_rsqrt_eq_div_sqrt _ _ (hdeg b i)]
  rfl

end Logits

/-! ## Row-normalised exponentials -/

/-- A row's exponentials of the differences to the row maximum, divided by their sum. -/
def softmaxRow (u : Fin 512 → EReal) (j : Fin 512) : EReal :=
  Ideal.div (Ideal.exp (u j - rowMax u)) (∑ k : Fin 512, Ideal.exp (u k - rowMax u))

section Kernel

/-- The kernel's row maximum and row sum of a block, as functions of the block. -/
def rmax (v : FVec Ideal S2x512x512 .f32) : FVec Ideal S2x512 .f32 :=
  multiReduction .maximumf [2] S2x512 v 0xFF800000#32 Gen.reduces_S2x512x512_S2x512 (.inl rfl) rfl
def rsum (v : FVec Ideal S2x512x512 .f32) : FVec Ideal S2x512 .f32 :=
  multiReduction .add [2] S2x512 v 0x00000000#32 Gen.reduces_S2x512x512_S2x512 (.inl rfl) rfl

theorem rmax_apply (v : FVec Ideal S2x512x512 .f32) (b : Fin 2) (i : Fin 512) :
    rmax v (ix2 b i) = rowMax fun k => v (ix3 b i k) := rowMax_apply v _ _ _ b i
theorem rsum_apply (v : FVec Ideal S2x512x512 .f32) (b : Fin 2) (i : Fin 512) :
    rsum v (ix2 b i) = ∑ k : Fin 512, v (ix3 b i k) := rowSum_apply v _ _ _ b i

/-- The kernel's exponentials of the differences to the row maximum. -/
def cexp (y : FVec Ideal S2x512x512 .f32) : FVec Ideal S2x512x512 .f32 :=
  exp (subf y (broadcastTo S2x512x512 (shapeCast S2x512x1 (rmax y) Gen.shapeCasts_S2x512_S2x512x1) Gen.broadcasts_S2x512x1_S2x512x512))

theorem cexp_apply (y : FVec Ideal S2x512x512 .f32) (b : Fin 2) (i k : Fin 512) :
    cexp y (ix3 b i k) = Ideal.exp (y (ix3 b i k) - rowMax fun k' => y (ix3 b i k')) := by
  unfold cexp
  show Ideal.exp (y (ix3 b i k) - broadcastTo S2x512x512 _ _ (ix3 b i k)) = _
  rw [broadcastTo_ab1_abc_apply, shapeCast_ab_ab1_apply, rmax_apply]

/-- The kernel's weights are the exponentials divided by their row sums (by unfolding). -/
theorem attn_eq (y : FVec Ideal S2x512x512 .f32) :
    KS.attn (F := Ideal) y = divf (cexp y) (broadcastTo S2x512x512
      (shapeCast S2x512x1 (rsum (cexp y)) Gen.shapeCasts_S2x512_S2x512x1) Gen.broadcasts_S2x512x1_S2x512x512) := rfl

/-- The kernel's weights at `(b, i, j)` are the normalised exponentials of row `(b, i)` of the logits. -/
theorem attn_apply (y : FVec Ideal S2x512x512 .f32) (b : Fin 2) (i j : Fin 512) :
    KS.attn (F := Ideal) y (ix3 b i j) = softmaxRow (fun k => y (ix3 b i k)) j := by
  rw [attn_eq, divf_apply, broadcastTo_ab1_abc_apply, shapeCast_ab_ab1_apply, rsum_apply]
  simp only [cexp_apply]
  rfl

end Kernel

section RefSoftmax
open Cert.ReferenceIdeal.ReadP

/-- The reference's maximum over the last axis from the pattern of minus infinity, at `(s, i)`, is the maximum of the
    row `k ↦ y (s, i, k)`. -/
theorem hostRowMax_apply (y : FVec Ideal ⟨3, ![192, 512, 512]⟩ .f32) (c : FVec Ideal ⟨0, ![]⟩ .f32)
    (h' : (⟨3, ![192, 512, 512]⟩ : Shape).ReducesTo [2] ⟨2, ![192, 512]⟩) (hu : 0 < (⟨0, ![]⟩ : Shape).numel)
    (hc : c (Shape.Idx.first hu) = Ideal.ofBits .f32 0xFF800000#32) (s : Fin 192) (i : Fin 512) :
    Host.reduce FloatOps.maximumf y c h' hu (ix2 s i) = rowMax fun k => y (ix3 s i k) := by
  have h : (⟨3, ![192, 512, 512]⟩ : Shape).Reduces [2] ⟨2, ![192, 512]⟩ := by decide
  rw [Host.reduce_eq_fold_single FloatOps.maximumf y c h' h hu, hc]
  exact congrArg (fun f => Finset.fold max (Ideal.ofBits .f32 0xFF800000#32) f (Finset.univ : Finset (Fin 512)))
    (funext fun k => congrArg y (lift_last h s i k))

theorem idx45_ix3 (s : Fin 192) (i j : Fin 512) : idx_main_v45 (ix3 s i j) = ix3 s i (0 : Fin 1) := by
  funext a; match a with | ⟨0, _⟩ => rfl | ⟨1, _⟩ => rfl | ⟨2, _⟩ => rfl
theorem idx44_ix3 (s : Fin 192) (i : Fin 512) (u : Fin 1) : idx_main_v44 (ix3 s i u) = ix2 s i := by
  funext a; match a with | ⟨0, _⟩ => rfl | ⟨1, _⟩ => rfl
theorem idx50_ix3 (s : Fin 192) (i j : Fin 512) : idx_main_v50 (ix3 s i j) = ix3 s i (0 : Fin 1) := by
  funext a; match a with | ⟨0, _⟩ => rfl | ⟨1, _⟩ => rfl | ⟨2, _⟩ => rfl
theorem idx49_ix3 (s : Fin 192) (i : Fin 512) (u : Fin 1) : idx_main_v49 (ix3 s i u) = ix2 s i := by
  funext a; match a with | ⟨0, _⟩ => rfl | ⟨1, _⟩ => rfl
theorem idx48_ix2 (s : Fin 192) (i : Fin 512) (k : Fin 512) : idx_main_v48 (ix2 s i) k = ix3 s i k := by
  funext a; match a with | ⟨0, _⟩ => rfl | ⟨1, _⟩ => rfl | ⟨2, _⟩ => rfl

/-- The reference's row maximum, spread back along the row: at `(s, i, k)` it is the maximum of row `(s, i)` of the
    logits (the extra maximum with minus infinity changes nothing). -/
theorem ref_max_apply (s : Fin 192) (i k : Fin 512) :
    val_main_v45 (F := Ideal) X A Wq bq Wk bk (ix3 s i k)
      = rowMax fun k' => val_main_v40 (F := Ideal) X A Wq bq Wk bk (ix3 s i k') := by
  rw [val_main_v45_apply, idx45_ix3, val_main_v44_apply, idx44_ix3, val_main_v43_apply, val_main_v42_apply,
    val_main_cst_8_apply]
  unfold val_main_v41
  rw [hostRowMax_apply _ _ _ _ rfl]
  show max (Ideal.ofBits .f32 0xFF800000#32) _ = _
  rw [ofBits_neg_inf_f32]
  exact max_eq_right bot_le

/-- The reference's exponentials of the differences to the row maximum. -/
theorem ref_cexp_apply (s : Fin 192) (i k : Fin 512) :
    val_main_v47 (F := Ideal) X A Wq bq Wk bk (ix3 s i k)
      = Ideal.exp (val_main_v40 (F := Ideal) X A Wq bq Wk bk (ix3 s i k)
          - rowMax fun k' => val_main_v40 (F := Ideal) X A Wq bq Wk bk (ix3 s i k')) := by
  rw [val_main_v47_apply, val_main_v46_apply, ref_max_apply]
  rfl

/-- The reference's weights at `(s, i, j)` are the normalised exponentials of row `(s, i)` of its logits. -/
theorem ref_attn_apply (s : Fin 192) (i j : Fin 512) :
    val_main_v51 (F := Ideal) X A Wq bq Wk bk (ix3 s i j)
      = softmaxRow (fun k => val_main_v40 (F := Ideal) X A Wq bq Wk bk (ix3 s i k)) j := by
  rw [val_main_v51_apply, val_main_v50_apply, idx50_ix3, val_main_v49_apply, idx49_ix3, val_main_v48_apply,
    val_main_cst_9_apply]
  simp only [idx48_ix2, ref_cexp_apply, Ideal.ofBits_def, Ideal.ofBits_zero_f32, zero_add, Ideal.hostDivf_def]
  rfl

end RefSoftmax

/-! ## The attention weights agree -/

/-- Entry by entry, the kernel's attention weights of block `t` are the reference's weights of subgraphs `2 t` and
    `2 t + 1`: both are the same row function of logits that agree entry by entry. -/
theorem attn_ref (q3 k3 : FVec Ideal S2x512x128 .bf16) (ab : FVec Ideal S2x512x512 .f32)
    (hq : ∀ (b : Fin 2) (i : Fin 512) (f : Fin 128), q3 (ix3 b i f) = RI.val_main_v23 (F := Ideal) X Wq bq (ix3 (gSub t b) i f))
    (hk : ∀ (b : Fin 2) (i : Fin 512) (f : Fin 128), k3 (ix3 b i f) = RI.val_main_v27 (F := Ideal) X Wk bk (ix3 (gSub t b) i f))
    (ha : ∀ (b : Fin 2) (i j : Fin 512), ab (ix3 b i j) = A (ix3 (gSub t b) i j))
    (hdeg : ∀ (b : Fin 2) (i : Fin 512), (0 : EReal) < ∑ j : Fin 512, A (ix3 (gSub t b) i j)) :
    ∀ (b : Fin 2) (i j : Fin 512), KS.attn (F := Ideal) (KS.logits (KS.scores q3 k3) ab (k0_pay5 (F := Ideal))) (ix3 b i j)
      = RI.val_main_v51 (F := Ideal) X A Wq bq Wk bk (ix3 (gSub t b) i j) := by
  intro b i j
  rw [attn_apply, ref_attn_apply]
  exact congrArg (fun u => softmaxRow u j)
    (funext fun k => logits_ref t X A Wq bq Wk bk q3 k3 ab hq hk ha hdeg b i k)

end Cert.Proof.SecC
end
-- ==== Proof.SecA.lean ====
/-
  The first stretch: each of the block's rows is normalised (its mean removed, divided by the root of its variance
  plus a small constant) and cut at zero. Both programs do this row by row with the same operations, so each side
  is one function `lnrelu` of the row; the block's rows are the global rows `1024 t + r`.
-/
import proofs.«163115_j56324201120151_2_alg».proof.Proof.KStages
import proofs.«163115_j56324201120151_2_alg».proof.Proof.RefReadP
import proofs.«163115_j56324201120151_2_alg».proof.Proof.Idx
import proofs.«163115_j56324201120151_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section
namespace Cert.Proof.SecA
open Idealize.ShloMosaic Idealize.ShloMosaic.ValueIdx Cert.Proof.Ix
open Cert.KernelIdeal (S1024x128 S1024 S1024x1 S2x512x512 S2x512x128 S128x384 S384 S128x128 S128 S98304x128 S192x512x512)
open Cert.KernelIdeal.Gen (reduces_S1024x128_S1024 shapeCasts_S1024_S1024x1 broadcasts_S1024x1_S1024x128)
namespace RI
export Cert.ReferenceIdeal.ReadP (val_main_v18 val_main_v23 val_main_v27 val_main_v31 val_main_v51 val_main_v72 val_main_v78)
end RI
open Cert.KernelIdeal
open Cert.ReferenceIdeal.ReadP

/-- One row normalised and cut at zero: `max ((u e - mean) · rsqrt (var + ε)) 0`, mean and variance over the
    row's 128 entries, every operation the exact one on extended reals. -/
def lnrelu (u : Fin 128 → EReal) (e : Fin 128) : EReal :=
  max ((u e - Ideal.div (∑ k, u k) (Ideal.ofBits .f32 0x43000000#32))
      * Ideal.rsqrt (Ideal.div (∑ k, (u k - Ideal.div (∑ k, u k) (Ideal.ofBits .f32 0x43000000#32))
            * (u k - Ideal.div (∑ k, u k) (Ideal.ofBits .f32 0x43000000#32))) (Ideal.ofBits .f32 0x43000000#32)
          + Ideal.ofBits .f32 0x3727C5AC#32))
    (Ideal.ofBits .f32 0x00000000#32)

/-- The lane sum of a [1024,128] vector: one sum per row. -/
def rsum (v : FVec Ideal S1024x128 .f32) : FVec Ideal S1024 .f32 :=
  multiReduction .add [1] S1024 v 0x00000000#32 reduces_S1024x128_S1024 (.inl rfl) rfl

/-- At row `r` it is the sum of the row's entries. -/
theorem rsum_apply (src : FVec Ideal S1024x128 .f32) (r : Fin 1024) : rsum src (ix1 r) = ∑ k : Fin 128, src (ix2 r k) := by
  unfold rsum
  refine (Ideal.multiReduction_add_single src _ reduces_S1024x128_S1024 _ _ (ix1 r)).trans ?_
  refine Finset.sum_congr rfl fun k _ => ?_
  exact congrArg src (funext fun a => Fin.ext (by match a with | ⟨0, _⟩ => rfl | ⟨1, _⟩ => rfl))

/-- The kernel's first stretch, with its two lane sums named. -/
def xs' (v0 : FVec Ideal S1024x128 .f32) : FVec Ideal S1024x128 .f32 :=
  have v1 : FVec Ideal S1024 .f32 := rsum v0
  have v2 : FVec Ideal S1024x1 .f32 := shapeCast S1024x1 v1 shapeCasts_S1024_S1024x1
  have cst_1 : Ideal .f32 := Scalar.ofBits .f32 0x43000000#32
  have v3 : FVec Ideal S1024x1 .f32 := broadcast S1024x1 cst_1
  have v4 : FVec Ideal S1024x1 .f32 := divf v2 v3
  have v5 : FVec Ideal S1024x128 .f32 := broadcastTo S1024x128 v4 broadcasts_S1024x1_S1024x128
  have v6 : FVec Ideal S1024x128 .f32 := subf v0 v5
  have v7 : FVec Ideal S1024x128 .f32 := mulf v6 v6
  have v8 : FVec Ideal S1024 .f32 := rsum v7
  have v9 : FVec Ideal S1024x1 .f32 := shapeCast S1024x1 v8 shapeCasts_S1024_S1024x1
  have cst_3 : Ideal .f32 := Scalar.ofBits .f32 0x43000000#32
  have v10 : FVec Ideal S1024x1 .f32 := broadcast S1024x1 cst_3
  have v11 : FVec Ideal S1024x1 .f32 := divf v9 v10
  have v12 : FVec Ideal S1024x128 .f32 := broadcastTo S1024x128 v4 broadcasts_S1024x1_S1024x128
  have v13 : FVec Ideal S1024x128 .f32 := subf v0 v12
  have cst_4 : Ideal .f32 := Scalar.ofBits .f32 0x3727C5AC#32
  have v14 : FVec Ideal S1024x1 .f32 := broadcast S1024x1 cst_4
  have v15 : FVec Ideal S1024x1 .f32 := addf v11 v14
  have v16 : FVec Ideal S1024x1 .f32 := rsqrt v15
  have v17 : FVec Ideal S1024x128 .f32 := broadcastTo S1024x128 v16 broadcasts_S1024x1_S1024x128
  have v18 : FVec Ideal S1024x128 .f32 := mulf v13 v17
  have cst_5 : Ideal .f32 := Scalar.ofBits .f32 0x00000000#32
  have v19 : FVec Ideal S1024x128 .f32 := broadcast S1024x128 cst_5
  have v20 : FVec Ideal S1024x128 .f32 := maximumf v18 v19
  v20

theorem xs_eq' : KS.xs (F := Ideal) = xs' := rfl

theorem rsqrt_apply' {s : Shape} (v : FVec Ideal s .f32) (i : s.Idx) : rsqrt v i = Ideal.rsqrt (v i) := rfl

/-- The kernel's stretch at row `r`, column `e`. -/
theorem xs_apply (xb : FVec Ideal S1024x128 .f32) (r : Fin 1024) (e : Fin 128) :
    KS.xs (F := Ideal) xb (ix2 r e) = lnrelu (fun k => xb (ix2 r k)) e := by
  rw [xs_eq']
  unfold xs' lnrelu
  simp only [maximumf_apply, mulf_apply, subf_apply, addf_apply, divf_apply, broadcast_apply, rsqrt_apply',
    Cert.LibKeepdims.broadcastTo_a1_ab_apply, Cert.LibKeepdims.shapeCast_a_a1_apply, rsum_apply]
  rfl

theorem i4 (n : Fin 98304) (e : Fin 128) : idx_main_v4 (ix2 n e) = ix2 n (0 : Fin 1) :=
  funext fun a => Fin.ext (by match a with | ⟨0, _⟩ => rfl | ⟨1, _⟩ => rfl)
theorem i11 (n : Fin 98304) (e : Fin 128) : idx_main_v11 (ix2 n e) = ix2 n (0 : Fin 1) :=
  funext fun a => Fin.ext (by match a with | ⟨0, _⟩ => rfl | ⟨1, _⟩ => rfl)
theorem i16 (n : Fin 98304) (e : Fin 128) : idx_main_v16 (ix2 n e) = ix2 n (0 : Fin 1) :=
  funext fun a => Fin.ext (by match a with | ⟨0, _⟩ => rfl | ⟨1, _⟩ => rfl)
theorem i1 (n : Fin 98304) (u : Fin 1) : idx_main_v1 (ix2 n u) = ix1 n :=
  funext fun a => Fin.ext (by match a with | ⟨0, _⟩ => rfl)
theorem i8 (n : Fin 98304) (u : Fin 1) : idx_main_v8 (ix2 n u) = ix1 n :=
  funext fun a => Fin.ext (by match a with | ⟨0, _⟩ => rfl)
theorem i0 (n : Fin 98304) (k : Fin 128) : idx_main_v0 (ix1 n) k = ix2 n k :=
  funext fun a => Fin.ext (by match a with | ⟨0, _⟩ => rfl | ⟨1, _⟩ => rfl)
theorem i7 (n : Fin 98304) (k : Fin 128) : idx_main_v7 (ix1 n) k = ix2 n k :=
  funext fun a => Fin.ext (by match a with | ⟨0, _⟩ => rfl | ⟨1, _⟩ => rfl)

/-- The reference's stretch at row `n`, column `e`. -/
theorem v18_apply (X : FVec Ideal S98304x128 .f32) (n : Fin 98304) (e : Fin 128) :
    val_main_v18 (F := Ideal) X (ix2 n e) = lnrelu (fun k => X (ix2 n k)) e := by
  unfold lnrelu
  simp only [val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_call0_v0_apply, val_main_call0_cst_apply,
    i4, i11, i16, i1, i8, i0, i7,
    Ideal.ofBits_def, Ideal.maximumf_def, Ideal.mulf_def, Ideal.subf_def, Ideal.addf_def, Ideal.hostDivf_def, Ideal.hostUnary_rsqrt_def,
    Ideal.ofBits_zero_f32, zero_add]

variable (t : Fin 96)

theorem xs_ref (X : FVec Ideal S98304x128 .f32) (xb : FVec Ideal S1024x128 .f32) (hx : ∀ (r : Fin 1024) (e : Fin 128), xb (ix2 r e) = X (ix2 (gRow t r) e)) :
    ∀ (r : Fin 1024) (e : Fin 128), KS.xs (F := Ideal) xb (ix2 r e) = RI.val_main_v18 (F := Ideal) X (ix2 (gRow t r) e) := by
  intro r e
  rw [xs_apply, v18_apply]
  exact congrArg (fun u => lnrelu u e) (funext fun k => hx r k)

end Cert.Proof.SecA
end
-- ==== Proof.SecB.lean ====
import proofs.«163115_j56324201120151_2_alg».proof.Proof.KStages
import proofs.«163115_j56324201120151_2_alg».proof.Proof.RefReadP
import proofs.«163115_j56324201120151_2_alg».proof.Proof.Idx
import proofs.«163115_j56324201120151_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section
namespace Cert.Proof.SecB
open Idealize.ShloMosaic Idealize.ShloMosaic.ValueIdx Cert.Proof.Ix
open Cert.KernelIdeal (S1024x128 S2x512x512 S2x512x128 S128x384 S384 S128x128 S128 S98304x128 S192x512x512)
open Cert.KernelIdeal.Gen (slices_S1024x384_o0_0_S1024x128 slices_S1024x384_o0_128_S1024x128 slices_S1024x384_o0_256_S1024x128 k0_pay5)
namespace RI
export Cert.ReferenceIdeal.ReadP (val_main_v18 val_main_v23 val_main_v27 val_main_v31 val_main_v51 val_main_v72 val_main_v78)
end RI
open Cert.KernelIdeal

variable (t : Fin 96)
variable (X : FVec Ideal S98304x128 .f32) (A : FVec Ideal S192x512x512 .f32)
  (Wq : FVec Ideal S128x128 .f32) (bq : FVec Ideal S128 .f32) (Wk : FVec Ideal S128x128 .f32) (bk : FVec Ideal S128 .f32)
  (Wv : FVec Ideal S128x128 .f32) (bv : FVec Ideal S128 .f32) (Wo : FVec Ideal S128x128 .f32) (bo : FVec Ideal S128 .f32)

/-! ## The kernel's fused projection and its three column blocks, read at an index -/

/-- The left operand's row coordinate in the fused product is the output's row. -/
theorem qkv_lhs0 (j : S1024x384.Idx) (q : dot_S1024x128_S128x384_S1024x384_1_0_0_1_n_n.contr.Idx) :
    (dot_S1024x128_S128x384_S1024x384_1_0_0_1_n_n.lhsIdx j q 0).val = (j 0).val := by
  unfold DotDims.lhsIdx
  rw [dif_neg (show ¬(0 : Fin S1024x128.rank) ∈ dot_S1024x128_S128x384_S1024x384_1_0_0_1_n_n.lhsBatch by decide),
    dif_pos (show (0 : Fin S1024x128.rank) ∈ dot_S1024x128_S128x384_S1024x384_1_0_0_1_n_n.lhsNonContracting by decide)]
  rfl

/-- The left operand's column coordinate in the fused product is the contraction coordinate. -/
theorem qkv_lhs1 (j : S1024x384.Idx) (q : dot_S1024x128_S128x384_S1024x384_1_0_0_1_n_n.contr.Idx) :
    (dot_S1024x128_S128x384_S1024x384_1_0_0_1_n_n.lhsIdx j q 1).val = (q ⟨0, by decide⟩).val :=
  dot_S1024x128_S128x384_S1024x384_1_0_0_1_n_n.lhsIdx_val_of_single rfl j q

/-- The right operand's row coordinate in the fused product is the contraction coordinate. -/
theorem qkv_rhs0 (j : S1024x384.Idx) (q : dot_S1024x128_S128x384_S1024x384_1_0_0_1_n_n.contr.Idx) :
    (dot_S1024x128_S128x384_S1024x384_1_0_0_1_n_n.rhsIdx j q 0).val = (q ⟨0, by decide⟩).val :=
  dot_S1024x128_S128x384_S1024x384_1_0_0_1_n_n.rhsIdx_val_of_single rfl j q

/-- The right operand's column coordinate in the fused product is the output's column. -/
theorem qkv_rhs1 (j : S1024x384.Idx) (q : dot_S1024x128_S128x384_S1024x384_1_0_0_1_n_n.contr.Idx) :
    (dot_S1024x128_S128x384_S1024x384_1_0_0_1_n_n.rhsIdx j q 1).val = (j 1).val := by
  unfold DotDims.rhsIdx
  rw [dif_neg (show ¬(1 : Fin S128x384.rank) ∈ dot_S1024x128_S128x384_S1024x384_1_0_0_1_n_n.rhsBatch by decide),
    dif_pos (show (1 : Fin S128x384.rank) ∈ dot_S1024x128_S128x384_S1024x384_1_0_0_1_n_n.rhsNonContracting by decide)]
  rfl

/-- The fused projection at row `r` and column `c`: the row of `x` times column `c` of the weight, plus the bias at `c`. -/
theorem qkv_apply (x : FVec Ideal S1024x128 .f32) (w : FVec Ideal S128x384 .bf16) (bias : FVec Ideal S384 .f32)
    (r : Fin 1024) (c : Fin 384) :
    KS.qkv (F := Ideal) x w bias (ix2 r c) = (∑ k : Fin 128, x (ix2 r k) * w (ix2 k c)) + bias (ix1 c) := by
  unfold KS.qkv
  rw [addf_apply, shapeCast_self, shapeCast_self]
  refine congrArg₂ (· + ·) ?_ ?_
  · simp only [matmul]
    rw [Ideal.matmul_constant_zero_apply,
      ← Equiv.sum_comp (contrEquiv1 dot_S1024x128_S128x384_S1024x384_1_0_0_1_n_n 128 rfl rfl).symm]
    refine Finset.sum_congr rfl fun k _ => ?_
    have hk := contrEquiv1_symm_val dot_S1024x128_S128x384_S1024x384_1_0_0_1_n_n 128 rfl rfl k
    have el : dot_S1024x128_S128x384_S1024x384_1_0_0_1_n_n.lhsIdx (ix2 r c)
        ((contrEquiv1 dot_S1024x128_S128x384_S1024x384_1_0_0_1_n_n 128 rfl rfl).symm k) = ix2 r k :=
      funext fun a => Fin.ext (by
        match a with
        | ⟨0, _⟩ => exact qkv_lhs0 _ _
        | ⟨1, _⟩ => exact (qkv_lhs1 _ _).trans hk)
    have er : dot_S1024x128_S128x384_S1024x384_1_0_0_1_n_n.rhsIdx (ix2 r c)
        ((contrEquiv1 dot_S1024x128_S128x384_S1024x384_1_0_0_1_n_n 128 rfl rfl).symm k) = ix2 k c :=
      funext fun a => Fin.ext (by
        match a with
        | ⟨0, _⟩ => exact (qkv_rhs0 _ _).trans hk
        | ⟨1, _⟩ => exact qkv_rhs1 _ _)
    rw [el, er]
    rfl
  · rw [broadcastTo_1b_ab_apply, shapeCast_a_1a_apply]

/-- Columns `off … off + 127` of a `1024 × 384` array re-laid as two subgraphs: entry `(b, i, f)` is the array's entry at
    row `512 b + i` and column `off + f`. -/
theorem part_apply (off : Nat) (h : S1024x384.Slices ![0, off] S1024x128) (y : FVec Ideal S1024x384 .f32)
    (b : Fin 2) (i : Fin 512) (f : Fin 128) (c : Fin 384) (hc : c.val = off + f.val) :
    KS.part (F := Ideal) ![0, off] h y (ix3 b i f) = y (ix2 (row b i) c) := by
  unfold KS.part
  refine (shapeCast_apply _ _ (ix3 b i f) (ix2 (row b i) f) ?_).trans ?_
  · rw [Shape.rowMajor_val_two, Shape.rowMajor_val_three]
    show (512 * b.val + i.val) * 128 + f.val = (b.val * 512 + i.val) * 128 + f.val
    omega
  · rw [truncf_apply]
    exact slice2_axis1_apply off y h (row b i) f c hc

/-! ## The reference's projection read at an index -/

/-- A projection of the reference at subgraph `s`, node `i`, feature `f`: the global row `512 s + i` of the normalised
    input times row `f` of the weight, plus the bias at `f`. -/
theorem ref_apply (W : FVec Ideal S128x128 .f32) (bias : FVec Ideal S128 .f32)
    (s : Fin 192) (i : Fin 512) (f : Fin 128) (R : Fin 98304) (hR : R.val = 512 * s.val + i.val) :
    RI.val_main_v23 (F := Ideal) X W bias (ix3 s i f)
      = (∑ k : Fin 128, RI.val_main_v18 (F := Ideal) X (ix2 R k) * W (ix2 f k)) + bias (ix1 f) := by
  rw [Cert.ReferenceIdeal.ReadP.val_main_v23_apply, Cert.ReferenceIdeal.ReadP.val_main_v20_apply,
    Cert.ReferenceIdeal.ReadP.val_main_v22_apply, Cert.ReferenceIdeal.ReadP.val_main_v21_apply]
  refine congrArg₂ (· + ·) (Finset.sum_congr rfl fun k _ => ?_) ?_
  · rw [Cert.ReferenceIdeal.ReadP.val_main_v19_apply]
    refine congrArg₂ (· * ·) (congrArg _ ?_) (congrArg _ ?_)
    · funext a
      refine Fin.ext ?_
      match a with
      | ⟨0, _⟩ =>
        show ((s.val * 512 + i.val) * 128 + k.val) / 128 = R.val
        have := k.isLt; omega
      | ⟨1, _⟩ =>
        show ((s.val * 512 + i.val) * 128 + k.val) % 128 = k.val
        have := k.isLt; omega
    · funext a
      match a with
      | ⟨0, _⟩ => rfl
      | ⟨1, _⟩ => rfl
  · refine congrArg bias ?_
    funext a
    match a with
    | ⟨0, _⟩ => rfl

/-! ## The three projections agree -/

/-- The keys' and the values' stages of the reference are the queries' stage at their own weight and bias: the same
    operations on the same reshaped input. -/
theorem v27_eq_v23 (W : FVec Ideal S128x128 .f32) (bias : FVec Ideal S128 .f32) :
    RI.val_main_v27 (F := Ideal) X W bias = RI.val_main_v23 (F := Ideal) X W bias := rfl
/-- The values' stage likewise. -/
theorem v31_eq_v23 (W : FVec Ideal S128x128 .f32) (bias : FVec Ideal S128 .f32) :
    RI.val_main_v31 (F := Ideal) X W bias = RI.val_main_v23 (F := Ideal) X W bias := rfl

/-- Columns `off … off + 127` of the kernel's fused projection are the reference's projection with weight `W` and bias
    `bias`, whenever those columns of the fused weight are `W` transposed and those entries of the fused bias are `bias`:
    both sides are the sum over `k` of the normalised input's global row `512 (2 t + b) + i` at `k` times `W (f, k)`, plus
    `bias f`. -/
theorem proj_ref (off : Nat) (hs : S1024x384.Slices ![0, off] S1024x128)
    (xsK : FVec Ideal S1024x128 .f32) (wqkv : FVec Ideal S128x384 .bf16) (bqkv : FVec Ideal S384 .f32)
    (W : FVec Ideal S128x128 .f32) (bias : FVec Ideal S128 .f32)
    (h18 : ∀ (r : Fin 1024) (e : Fin 128), xsK (ix2 r e) = RI.val_main_v18 (F := Ideal) X (ix2 (gRow t r) e))
    (col : Fin 128 → Fin 384) (hcol : ∀ f, (col f).val = off + f.val)
    (hw : ∀ (e f : Fin 128), wqkv (ix2 e (col f)) = W (ix2 f e))
    (hb : ∀ f : Fin 128, bqkv (ix1 (col f)) = bias (ix1 f))
    (b : Fin 2) (i : Fin 512) (f : Fin 128) :
    KS.part (F := Ideal) ![0, off] hs (KS.qkv xsK wqkv bqkv) (ix3 b i f)
      = RI.val_main_v23 (F := Ideal) X W bias (ix3 (gSub t b) i f) := by
  rw [part_apply off hs _ b i f (col f) (hcol f), qkv_apply,
    ref_apply X W bias (gSub t b) i f (gRow t (row b i)) (gRow_row_val t b i), hb f]
  refine congrArg (· + bias (ix1 f)) (Finset.sum_congr rfl fun k _ => ?_)
  rw [h18, hw]

theorem q_ref (xsK : FVec Ideal S1024x128 .f32) (wqkv : FVec Ideal S128x384 .bf16) (bqkv : FVec Ideal S384 .f32)
    (h18 : ∀ (r : Fin 1024) (e : Fin 128), xsK (ix2 r e) = RI.val_main_v18 (F := Ideal) X (ix2 (gRow t r) e))
    (hw : ∀ (e f : Fin 128), wqkv (ix2 e (⟨f.val, by omega⟩ : Fin 384)) = Wq (ix2 f e))
    (hb : ∀ f : Fin 128, bqkv (ix1 (⟨f.val, by omega⟩ : Fin 384)) = bq (ix1 f)) :
    ∀ (b : Fin 2) (i : Fin 512) (f : Fin 128), KS.part (F := Ideal) ![0, 0] slices_S1024x384_o0_0_S1024x128 (KS.qkv xsK wqkv bqkv) (ix3 b i f)
      = RI.val_main_v23 (F := Ideal) X Wq bq (ix3 (gSub t b) i f) :=
  proj_ref t X 0 slices_S1024x384_o0_0_S1024x128 xsK wqkv bqkv Wq bq h18
    (fun f => ⟨f.val, by omega⟩) (fun f => (Nat.zero_add _).symm) hw hb

theorem k_ref (xsK : FVec Ideal S1024x128 .f32) (wqkv : FVec Ideal S128x384 .bf16) (bqkv : FVec Ideal S384 .f32)
    (h18 : ∀ (r : Fin 1024) (e : Fin 128), xsK (ix2 r e) = RI.val_main_v18 (F := Ideal) X (ix2 (gRow t r) e))
    (hw : ∀ (e f : Fin 128), wqkv (ix2 e (⟨128 + f.val, by omega⟩ : Fin 384)) = Wk (ix2 f e))
    (hb : ∀ f : Fin 128, bqkv (ix1 (⟨128 + f.val, by omega⟩ : Fin 384)) = bk (ix1 f)) :
    ∀ (b : Fin 2) (i : Fin 512) (f : Fin 128), KS.part (F := Ideal) ![0, 128] slices_S1024x384_o0_128_S1024x128 (KS.qkv xsK wqkv bqkv) (ix3 b i f)
      = RI.val_main_v27 (F := Ideal) X Wk bk (ix3 (gSub t b) i f) := by
  rw [v27_eq_v23]
  exact proj_ref t X 128 slices_S1024x384_o0_128_S1024x128 xsK wqkv bqkv Wk bk h18
    (fun f => ⟨128 + f.val, by omega⟩) (fun f => rfl) hw hb

theorem v_ref (xsK : FVec Ideal S1024x128 .f32) (wqkv : FVec Ideal S128x384 .bf16) (bqkv : FVec Ideal S384 .f32)
    (h18 : ∀ (r : Fin 1024) (e : Fin 128), xsK (ix2 r e) = RI.val_main_v18 (F := Ideal) X (ix2 (gRow t r) e))
    (hw : ∀ (e f : Fin 128), wqkv (ix2 e (⟨256 + f.val, by omega⟩ : Fin 384)) = Wv (ix2 f e))
    (hb : ∀ f : Fin 128, bqkv (ix1 (⟨256 + f.val, by omega⟩ : Fin 384)) = bv (ix1 f)) :
    ∀ (b : Fin 2) (i : Fin 512) (f : Fin 128), KS.part (F := Ideal) ![0, 256] slices_S1024x384_o0_256_S1024x128 (KS.qkv xsK wqkv bqkv) (ix3 b i f)
      = RI.val_main_v31 (F := Ideal) X Wv bv (ix3 (gSub t b) i f) := by
  rw [v31_eq_v23]
  exact proj_ref t X 256 slices_S1024x384_o0_256_S1024x128 xsK wqkv bqkv Wv bv h18
    (fun f => ⟨256 + f.val, by omega⟩) (fun f => rfl) hw hb

end Cert.Proof.SecB
end
-- ==== Proof.SecD.lean ====
import proofs.«163115_j56324201120151_2_alg».proof.Proof.KStages
import proofs.«163115_j56324201120151_2_alg».proof.Proof.RefReadP
import proofs.«163115_j56324201120151_2_alg».proof.Proof.Idx
import proofs.«163115_j56324201120151_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section
namespace Cert.Proof.SecD
open Idealize.ShloMosaic Idealize.ShloMosaic.ValueIdx Cert.Proof.Ix
open Cert.KernelIdeal (S1024x128 S2x512x512 S2x512x128 S128x384 S384 S128x128 S128 S98304x128 S192x512x512)
open Cert.KernelIdeal.Gen (slices_S1024x384_o0_0_S1024x128 slices_S1024x384_o0_128_S1024x128 slices_S1024x384_o0_256_S1024x128 k0_pay5)
namespace RI
export Cert.ReferenceIdeal.ReadP (val_main_v18 val_main_v23 val_main_v27 val_main_v31 val_main_v51 val_main_v72 val_main_v78)
end RI
open Cert.KernelIdeal

variable (t : Fin 96)
variable (X : FVec Ideal S98304x128 .f32) (A : FVec Ideal S192x512x512 .f32)
  (Wq : FVec Ideal S128x128 .f32) (bq : FVec Ideal S128 .f32) (Wk : FVec Ideal S128x128 .f32) (bk : FVec Ideal S128 .f32)
  (Wv : FVec Ideal S128x128 .f32) (bv : FVec Ideal S128 .f32) (Wo : FVec Ideal S128x128 .f32) (bo : FVec Ideal S128 .f32)

/-! ## The weights times the values, read at an index -/

/-- The left operand's index of the per-subgraph product keeps the output's subgraph … -/
theorem mix_lhs_0 (i : S2x512x128.Idx) (q : dot_S2x512x512_S2x512x128_S2x512x128_2_1_1_2_0_0.contr.Idx) :
    (dot_S2x512x512_S2x512x128_S2x512x128_2_1_1_2_0_0.lhsIdx i q 0).val = (i 0).val := by
  unfold DotDims.lhsIdx
  rw [dif_pos (show (0 : Fin S2x512x512.rank) ∈ dot_S2x512x512_S2x512x128_S2x512x128_2_1_1_2_0_0.lhsBatch by decide)]
  rfl
/-- … and the output's row, … -/
theorem mix_lhs_1 (i : S2x512x128.Idx) (q : dot_S2x512x512_S2x512x128_S2x512x128_2_1_1_2_0_0.contr.Idx) :
    (dot_S2x512x512_S2x512x128_S2x512x128_2_1_1_2_0_0.lhsIdx i q 1).val = (i 1).val := by
  unfold DotDims.lhsIdx
  rw [dif_neg (show ¬(1 : Fin S2x512x512.rank) ∈ dot_S2x512x512_S2x512x128_S2x512x128_2_1_1_2_0_0.lhsBatch by decide),
    dif_pos (show (1 : Fin S2x512x512.rank) ∈ dot_S2x512x512_S2x512x128_S2x512x128_2_1_1_2_0_0.lhsNonContracting by decide)]
  rfl
/-- … with the contraction coordinate on its last axis. -/
theorem mix_lhs_2 (i : S2x512x128.Idx) (q : dot_S2x512x512_S2x512x128_S2x512x128_2_1_1_2_0_0.contr.Idx) :
    (dot_S2x512x512_S2x512x128_S2x512x128_2_1_1_2_0_0.lhsIdx i q 2).val = (q ⟨0, by decide⟩).val :=
  dot_S2x512x512_S2x512x128_S2x512x128_2_1_1_2_0_0.lhsIdx_val_of_single rfl i q
/-- The right operand's index keeps the output's subgraph, … -/
theorem mix_rhs_0 (i : S2x512x128.Idx) (q : dot_S2x512x512_S2x512x128_S2x512x128_2_1_1_2_0_0.contr.Idx) :
    (dot_S2x512x512_S2x512x128_S2x512x128_2_1_1_2_0_0.rhsIdx i q 0).val = (i 0).val := by
  unfold DotDims.rhsIdx
  rw [dif_pos (show (0 : Fin S2x512x128.rank) ∈ dot_S2x512x512_S2x512x128_S2x512x128_2_1_1_2_0_0.rhsBatch by decide)]
  rfl
/-- … has the contraction coordinate as its node, … -/
theorem mix_rhs_1 (i : S2x512x128.Idx) (q : dot_S2x512x512_S2x512x128_S2x512x128_2_1_1_2_0_0.contr.Idx) :
    (dot_S2x512x512_S2x512x128_S2x512x128_2_1_1_2_0_0.rhsIdx i q 1).val = (q ⟨0, by decide⟩).val :=
  dot_S2x512x512_S2x512x128_S2x512x128_2_1_1_2_0_0.rhsIdx_val_of_single rfl i q
/-- … and keeps the output's feature. -/
theorem mix_rhs_2 (i : S2x512x128.Idx) (q : dot_S2x512x512_S2x512x128_S2x512x128_2_1_1_2_0_0.contr.Idx) :
    (dot_S2x512x512_S2x512x128_S2x512x128_2_1_1_2_0_0.rhsIdx i q 2).val = (i 2).val := by
  unfold DotDims.rhsIdx
  rw [dif_neg (show ¬(2 : Fin S2x512x128.rank) ∈ dot_S2x512x512_S2x512x128_S2x512x128_2_1_1_2_0_0.rhsBatch by decide),
    dif_pos (show (2 : Fin S2x512x128.rank) ∈ dot_S2x512x512_S2x512x128_S2x512x128_2_1_1_2_0_0.rhsNonContracting by decide)]
  rfl

/-- Entry (b, i, f) of the weights times the values is the sum over the nodes j of the subgraph of weight (b, i, j)
    times value (b, j, f). -/
theorem mix_apply (aw : FVec Ideal S2x512x512 .f32) (v3 : FVec Ideal S2x512x128 .bf16) (b : Fin 2) (i : Fin 512) (f : Fin 128) :
    KS.mix (F := Ideal) aw v3 (ix3 b i f) = ∑ j : Fin 512, aw (ix3 b i j) * v3 (ix3 b j f) := by
  unfold KS.mix
  refine (Ideal.matmul_constant_zero_apply dot_S2x512x512_S2x512x128_S2x512x128_2_1_1_2_0_0 none _ v3 (ix3 b i f)).trans ?_
  rw [← Equiv.sum_comp (ValueIdx.contrEquiv1 dot_S2x512x512_S2x512x128_S2x512x128_2_1_1_2_0_0 512 rfl rfl).symm]
  refine Finset.sum_congr rfl fun k _ => ?_
  have hk := ValueIdx.contrEquiv1_symm_val dot_S2x512x512_S2x512x128_S2x512x128_2_1_1_2_0_0 512 rfl rfl k
  have el : dot_S2x512x512_S2x512x128_S2x512x128_2_1_1_2_0_0.lhsIdx (ix3 b i f)
      ((ValueIdx.contrEquiv1 dot_S2x512x512_S2x512x128_S2x512x128_2_1_1_2_0_0 512 rfl rfl).symm k) = ix3 b i k :=
    funext fun a => Fin.ext (by
      match a with
      | ⟨0, _⟩ => exact mix_lhs_0 _ _
      | ⟨1, _⟩ => exact mix_lhs_1 _ _
      | ⟨2, _⟩ => exact (mix_lhs_2 _ _).trans hk)
  have er : dot_S2x512x512_S2x512x128_S2x512x128_2_1_1_2_0_0.rhsIdx (ix3 b i f)
      ((ValueIdx.contrEquiv1 dot_S2x512x512_S2x512x128_S2x512x128_2_1_1_2_0_0 512 rfl rfl).symm k) = ix3 b k f :=
    funext fun a => Fin.ext (by
      match a with
      | ⟨0, _⟩ => exact mix_rhs_0 _ _
      | ⟨1, _⟩ => exact (mix_rhs_1 _ _).trans hk
      | ⟨2, _⟩ => exact mix_rhs_2 _ _)
  rw [el, er]
  rfl

/-! ## Layout operations of the [2, 512, ·] arrays read at an index -/

section Layout
variable {α : Type}

/-- A `[2, 512]` array cast to `[2, 512, 1]` reads, at `(b, i, u)`, the array at `(b, i)`: both positions have the
    row-major offset `512 b + i`. -/
theorem cast_keep (x : S2x512.Idx → α) (h : S2x512.ShapeCasts S2x512x1) (b : Fin 2) (i : Fin 512) (u : Fin 1) :
    shapeCast S2x512x1 x h (ix3 b i u) = x (ix2 b i) :=
  shapeCast_apply x h _ _ (by
    have hu : u.val = 0 := by omega
    rw [Shape.rowMajor_val_two, Shape.rowMajor_val_three]
    show b.val * 512 + i.val = (b.val * 512 + i.val) * 1 + u.val
    omega)

/-- A `[2, 512, 1]` column broadcast to `[2, 512, 128]` reads, at `(b, i, c)`, the column's entry of `(b, i)`. -/
theorem bcast_keep (v : S2x512x1.Idx → α) (h : S2x512x1.Broadcasts S2x512x128) (b : Fin 2) (i : Fin 512) (c : Fin 128) :
    broadcastTo S2x512x128 v h (ix3 b i c) = v (ix3 b i (0 : Fin 1)) := by
  refine broadcastTo_apply v h (ix3 b i c) (ix3 b i (0 : Fin 1)) fun ax => ?_
  match ax with
  | ⟨0, _⟩ => show b.val = if (2 : Nat) = 1 then 0 else b.val; rw [if_neg (by decide)]
  | ⟨1, _⟩ => show i.val = if (512 : Nat) = 1 then 0 else i.val; rw [if_neg (by decide)]
  | ⟨2, _⟩ => show 0 = if (1 : Nat) = 1 then 0 else c.val; rw [if_pos rfl]

/-- A `[2, 512, 128]` array cast to `[1024, 128]` reads, at row `512 b + i`, the array's row `(b, i)`. -/
theorem cast_rows (x : S2x512x128.Idx → α) (h : S2x512x128.ShapeCasts S1024x128) (b : Fin 2) (i : Fin 512) (e : Fin 128) :
    shapeCast S1024x128 x h (ix2 (row b i) e) = x (ix3 b i e) :=
  shapeCast_apply x h _ _ (by
    rw [Shape.rowMajor_val_three, Shape.rowMajor_val_two]
    show (b.val * 512 + i.val) * 128 + e.val = (512 * b.val + i.val) * 128 + e.val
    omega)

end Layout

/-- The sum over the last axis of a `[2, 512, 128]` array reads, at `(b, i)`, the sum over `k` of the entries
    `(b, i, k)`. -/
theorem rowsum_apply (src : FVec Ideal S2x512x128 .f32) (h : S2x512x128.Reduces [2] S2x512) (hφ : FKind.Formats .f32)
    (hacc : (0x00000000#32 : BitVec 32) = 0x00000000#32) (b : Fin 2) (i : Fin 512) :
    multiReduction .add [2] S2x512 src 0x00000000#32 h hφ hacc (ix2 b i) = ∑ k : Fin 128, src (ix3 b i k) := by
  refine (Ideal.multiReduction_add_single src _ h hφ hacc (ix2 b i)).trans ?_
  refine Finset.sum_congr rfl fun k _ => congrArg src (funext fun a => Fin.ext ?_)
  match a with
  | ⟨0, _⟩ => rfl
  | ⟨1, _⟩ => rfl
  | ⟨2, _⟩ => rfl

/-! ## One row, normalised and cut at zero -/

/-- The mean of a row of 128 values: their sum divided by the constant 128. -/
def rmean (u : Fin 128 → EReal) : EReal := Ideal.div (∑ k : Fin 128, u k) (Ideal.ofBits .f32 0x43000000#32)

/-- The variance of the row: the sum of the squared differences to the mean, divided by the constant 128. -/
def rvar (u : Fin 128 → EReal) : EReal :=
  Ideal.div (∑ k : Fin 128, (u k - rmean u) * (u k - rmean u)) (Ideal.ofBits .f32 0x43000000#32)

/-- The row with its mean removed, times the inverse root of the variance plus the small constant, cut at zero. -/
def lnrelu (u : Fin 128 → EReal) (e : Fin 128) : EReal :=
  max ((u e - rmean u) * Ideal.rsqrt (rvar u + Ideal.ofBits .f32 0x3727C5AC#32)) (Ideal.ofBits .f32 0x00000000#32)

/-! ## The kernel's normalisation is the row function -/

section Kernel
variable (y : FVec Ideal S2x512x128 .f32)

/-- The kernel's column of means. -/
theorem k_mean (h : S2x512x128.Reduces [2] S2x512) (hφ : FKind.Formats .f32)
    (hacc : (0x00000000#32 : BitVec 32) = 0x00000000#32) (hc : S2x512.ShapeCasts S2x512x1) (b : Fin 2) (i : Fin 512) (u : Fin 1) :
    divf (shapeCast S2x512x1 (multiReduction .add [2] S2x512 y 0x00000000#32 h hφ hacc) hc)
        (broadcast S2x512x1 (Scalar.ofBits (F := Ideal) .f32 0x43000000#32)) (ix3 b i u)
      = rmean fun k => y (ix3 b i k) := by
  show Ideal.div (shapeCast S2x512x1 (multiReduction .add [2] S2x512 y 0x00000000#32 h hφ hacc) hc (ix3 b i u)) (Ideal.ofBits .f32 0x43000000#32) = _
  rw [cast_keep, rowsum_apply]
  rfl

/-- The kernel's differences to the mean. -/
theorem k_center (h : S2x512x128.Reduces [2] S2x512) (hφ : FKind.Formats .f32)
    (hacc : (0x00000000#32 : BitVec 32) = 0x00000000#32) (hc : S2x512.ShapeCasts S2x512x1)
    (hb : S2x512x1.Broadcasts S2x512x128) (b : Fin 2) (i : Fin 512) (k : Fin 128) :
    subf y (broadcastTo S2x512x128 (divf (shapeCast S2x512x1 (multiReduction .add [2] S2x512 y 0x00000000#32 h hφ hacc) hc)
        (broadcast S2x512x1 (Scalar.ofBits (F := Ideal) .f32 0x43000000#32))) hb) (ix3 b i k)
      = y (ix3 b i k) - rmean fun k => y (ix3 b i k) := by
  show y (ix3 b i k) - broadcastTo S2x512x128 _ hb (ix3 b i k) = _
  rw [bcast_keep, k_mean]

/-- The kernel's column of variances. -/
theorem k_var (h : S2x512x128.Reduces [2] S2x512) (hφ : FKind.Formats .f32)
    (hacc : (0x00000000#32 : BitVec 32) = 0x00000000#32) (hc : S2x512.ShapeCasts S2x512x1)
    (hb : S2x512x1.Broadcasts S2x512x128) (b : Fin 2) (i : Fin 512) (u : Fin 1) :
    divf (shapeCast S2x512x1 (multiReduction .add [2] S2x512
          (mulf (subf y (broadcastTo S2x512x128 (divf (shapeCast S2x512x1 (multiReduction .add [2] S2x512 y 0x00000000#32 h hφ hacc) hc)
              (broadcast S2x512x1 (Scalar.ofBits (F := Ideal) .f32 0x43000000#32))) hb))
            (subf y (broadcastTo S2x512x128 (divf (shapeCast S2x512x1 (multiReduction .add [2] S2x512 y 0x00000000#32 h hφ hacc) hc)
              (broadcast S2x512x1 (Scalar.ofBits (F := Ideal) .f32 0x43000000#32))) hb)))
          0x00000000#32 h hφ hacc) hc)
        (broadcast S2x512x1 (Scalar.ofBits (F := Ideal) .f32 0x43000000#32)) (ix3 b i u)
      = rvar fun k => y (ix3 b i k) := by
  show Ideal.div (shapeCast S2x512x1 _ hc (ix3 b i u)) (Ideal.ofBits .f32 0x43000000#32) = _
  rw [cast_keep, rowsum_apply]
  unfold rvar
  refine congrArg (Ideal.div · _) (Finset.sum_congr rfl fun k _ => ?_)
  show subf y _ (ix3 b i k) * subf y _ (ix3 b i k) = _
  rw [k_center]

/-- The kernel's normalised rows, cut at zero and re-laid as 1024 rows: row `512 b + i` is the row function of row
    `(b, i)` of what it reads. -/
theorem hs_row (b : Fin 2) (i : Fin 512) (e : Fin 128) :
    KS.hs (F := Ideal) y (ix2 (row b i) e) = lnrelu (fun k => y (ix3 b i k)) e := by
  unfold KS.hs
  refine (cast_rows _ _ b i e).trans ?_
  show max (subf y _ (ix3 b i e) * broadcastTo S2x512x128 (rsqrt (addf (divf _ _) (broadcast S2x512x1 (Scalar.ofBits (F := Ideal) .f32 0x3727C5AC#32)))) _ (ix3 b i e))
      (Ideal.ofBits .f32 0x00000000#32) = _
  rw [bcast_keep, k_center]
  show max (_ * Ideal.rsqrt ((divf _ _ : FVec Ideal S2x512x1 .f32) (ix3 b i (0 : Fin 1)) + Ideal.ofBits .f32 0x3727C5AC#32)) _ = _
  rw [k_var]
  rfl

end Kernel

/-! ## The reference's normalisation is the row function -/

section Reference
open Cert.ReferenceIdeal.ReadP

/-- The reference's row sums of the mixed values (its initial value is zero). -/
theorem r_sum (n : Fin 98304) :
    val_main_v54 (F := Ideal) X A Wq bq Wk bk Wv bv (ix1 n)
      = ∑ k : Fin 128, val_main_v53 (F := Ideal) X A Wq bq Wk bk Wv bv (ix2 n k) := by
  rw [val_main_v54_apply]
  show Ideal.ofBits .f32 0x00000000#32 + _ = _
  rw [Ideal.ofBits_zero_f32, zero_add]
  exact Finset.sum_congr rfl fun k _ => congrArg _ (funext fun a => Fin.ext (by
    match a with
    | ⟨0, _⟩ => rfl
    | ⟨1, _⟩ => rfl))

/-- The reference's column of means. -/
theorem r_mean (n : Fin 98304) (u : Fin 1) :
    val_main_v57 (F := Ideal) X A Wq bq Wk bk Wv bv (ix2 n u)
      = rmean fun k => val_main_v53 (F := Ideal) X A Wq bq Wk bk Wv bv (ix2 n k) := by
  have e : idx_main_v55 (ix2 n u) = ix1 n := funext fun a => Fin.ext (by
    match a with
    | ⟨0, _⟩ => rfl)
  rw [val_main_v57_apply, val_main_v55_apply, val_main_v56_apply, e, r_sum]
  rfl

/-- The reference's differences to the mean, as it squares them … -/
theorem r_center59 (n : Fin 98304) (k : Fin 128) :
    val_main_v59 (F := Ideal) X A Wq bq Wk bk Wv bv (ix2 n k)
      = val_main_v53 (F := Ideal) X A Wq bq Wk bk Wv bv (ix2 n k)
        - rmean fun k => val_main_v53 (F := Ideal) X A Wq bq Wk bk Wv bv (ix2 n k) := by
  have e : idx_main_v58 (ix2 n k) = ix2 n (0 : Fin 1) := funext fun a => Fin.ext (by
    match a with
    | ⟨0, _⟩ => rfl
    | ⟨1, _⟩ => rfl)
  rw [val_main_v59_apply, val_main_v58_apply, e, r_mean]
  rfl

/-- … and as it scales them. -/
theorem r_center66 (n : Fin 98304) (k : Fin 128) :
    val_main_v66 (F := Ideal) X A Wq bq Wk bk Wv bv (ix2 n k)
      = val_main_v53 (F := Ideal) X A Wq bq Wk bk Wv bv (ix2 n k)
        - rmean fun k => val_main_v53 (F := Ideal) X A Wq bq Wk bk Wv bv (ix2 n k) := by
  have e : idx_main_v65 (ix2 n k) = ix2 n (0 : Fin 1) := funext fun a => Fin.ext (by
    match a with
    | ⟨0, _⟩ => rfl
    | ⟨1, _⟩ => rfl)
  rw [val_main_v66_apply, val_main_v65_apply, e, r_mean]
  rfl

/-- The reference's column of variances. -/
theorem r_var (n : Fin 98304) (u : Fin 1) :
    val_main_v64 (F := Ideal) X A Wq bq Wk bk Wv bv (ix2 n u)
      = rvar fun k => val_main_v53 (F := Ideal) X A Wq bq Wk bk Wv bv (ix2 n k) := by
  have e : idx_main_v62 (ix2 n u) = ix1 n := funext fun a => Fin.ext (by
    match a with
    | ⟨0, _⟩ => rfl)
  rw [val_main_v64_apply, val_main_v62_apply, val_main_v63_apply, e, val_main_v61_apply]
  show Ideal.div (Ideal.ofBits .f32 0x00000000#32 + _) (Ideal.ofBits .f32 0x43000000#32) = _
  rw [Ideal.ofBits_zero_f32, zero_add]
  unfold rvar
  refine congrArg (Ideal.div · _) (Finset.sum_congr rfl fun k _ => ?_)
  have e2 : idx_main_v61 (ix1 n) k = ix2 n k := funext fun a => Fin.ext (by
    match a with
    | ⟨0, _⟩ => rfl
    | ⟨1, _⟩ => rfl)
  rw [e2, val_main_v60_apply, r_center59]
  rfl

/-- The reference's normalised rows, cut at zero: row `n` is the row function of row `n` of the mixed values. -/
theorem r_row (n : Fin 98304) (e : Fin 128) :
    val_main_v72 (F := Ideal) X A Wq bq Wk bk Wv bv (ix2 n e)
      = lnrelu (fun k => val_main_v53 (F := Ideal) X A Wq bq Wk bk Wv bv (ix2 n k)) e := by
  have e1 : idx_main_v70 (ix2 n e) = ix2 n (0 : Fin 1) := funext fun a => Fin.ext (by
    match a with
    | ⟨0, _⟩ => rfl
    | ⟨1, _⟩ => rfl)
  rw [val_main_v72_apply, val_main_v71_apply, r_center66, val_main_v70_apply, e1, val_main_v69_apply, val_main_v68_apply,
    r_var, val_main_v67_apply, val_main_call2_v0_apply]
  rfl

/-! ## The mixed values agree, and the conclusion -/

/-- Entry (b, i, f) of the block's weights times values is the reference's mixed value of global row
    `1024 t + 512 b + i`: the same sum over the nodes of subgraph `2 t + b`. -/
theorem mix_ref (aw : FVec Ideal S2x512x512 .f32) (v3 : FVec Ideal S2x512x128 .bf16)
    (h51 : ∀ (b : Fin 2) (i j : Fin 512), aw (ix3 b i j) = RI.val_main_v51 (F := Ideal) X A Wq bq Wk bk (ix3 (gSub t b) i j))
    (h31 : ∀ (b : Fin 2) (i : Fin 512) (f : Fin 128), v3 (ix3 b i f) = RI.val_main_v31 (F := Ideal) X Wv bv (ix3 (gSub t b) i f))
    (b : Fin 2) (i : Fin 512) (f : Fin 128) :
    KS.mix (F := Ideal) aw v3 (ix3 b i f) = val_main_v53 (F := Ideal) X A Wq bq Wk bk Wv bv (ix2 (gRow t (row b i)) f) := by
  have e : idx_main_v53 (ix2 (gRow t (row b i)) f) = ix3 (gSub t b) i f := funext fun a => Fin.ext (by
    have hr := gRow_row_val t b i
    have hi := i.isLt
    have hf := f.isLt
    match a with
    | ⟨0, _⟩ => show ((gRow t (row b i)).val * 128 + f.val) / 65536 = (gSub t b).val; omega
    | ⟨1, _⟩ => show ((gRow t (row b i)).val * 128 + f.val) / 128 % 512 = i.val; omega
    | ⟨2, _⟩ => show ((gRow t (row b i)).val * 128 + f.val) % 128 = f.val; omega)
  rw [mix_apply, val_main_v53_apply, e, val_main_v52_apply]
  refine Finset.sum_congr rfl fun j _ => ?_
  have el : lidx_main_v52 (ix3 (gSub t b) i f) j = ix3 (gSub t b) i j := funext fun a => Fin.ext (by
    match a with
    | ⟨0, _⟩ => rfl
    | ⟨1, _⟩ => rfl
    | ⟨2, _⟩ => rfl)
  have er : ridx_main_v52 (ix3 (gSub t b) i f) j = ix3 (gSub t b) j f := funext fun a => Fin.ext (by
    match a with
    | ⟨0, _⟩ => rfl
    | ⟨1, _⟩ => rfl
    | ⟨2, _⟩ => rfl)
  rw [el, er, h51, h31]

end Reference

/-- The block's weighted values, normalised and cut at zero, are the reference's at the block's rows: both are the row
    function of the same mixed values. -/
theorem hs_ref (aw : FVec Ideal S2x512x512 .f32) (v3 : FVec Ideal S2x512x128 .bf16)
    (h51 : ∀ (b : Fin 2) (i j : Fin 512), aw (ix3 b i j) = RI.val_main_v51 (F := Ideal) X A Wq bq Wk bk (ix3 (gSub t b) i j))
    (h31 : ∀ (b : Fin 2) (i : Fin 512) (f : Fin 128), v3 (ix3 b i f) = RI.val_main_v31 (F := Ideal) X Wv bv (ix3 (gSub t b) i f)) :
    ∀ (r : Fin 1024) (e : Fin 128), KS.hs (F := Ideal) (KS.mix aw v3) (ix2 r e)
      = RI.val_main_v72 (F := Ideal) X A Wq bq Wk bk Wv bv (ix2 (gRow t r) e) := by
  intro r e
  obtain ⟨b, i, rfl⟩ : ∃ (b : Fin 2) (i : Fin 512), r = row b i :=
    ⟨⟨r.val / 512, by have := r.isLt; omega⟩, ⟨r.val % 512, by omega⟩,
      Fin.ext (by show r.val = 512 * (r.val / 512) + r.val % 512; omega)⟩
  rw [hs_row, r_row]
  exact congrArg (lnrelu · e) (funext fun k => mix_ref t X A Wq bq Wk bk Wv bv aw v3 h51 h31 b i k)

end Cert.Proof.SecD
end
-- ==== Proof.SecE.lean ====
import proofs.«163115_j56324201120151_2_alg».proof.Proof.KStages
import proofs.«163115_j56324201120151_2_alg».proof.Proof.RefReadP
import proofs.«163115_j56324201120151_2_alg».proof.Proof.Idx
import proofs.«163115_j56324201120151_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section
namespace Cert.Proof.SecE
open Idealize.ShloMosaic Idealize.ShloMosaic.ValueIdx Cert.Proof.Ix
open Cert.KernelIdeal (S1024x128 S2x512x512 S2x512x128 S128x384 S384 S128x128 S128 S98304x128 S192x512x512)
open Cert.KernelIdeal.Gen (slices_S1024x384_o0_0_S1024x128 slices_S1024x384_o0_128_S1024x128 slices_S1024x384_o0_256_S1024x128 k0_pay5)
namespace RI
export Cert.ReferenceIdeal.ReadP (val_main_v18 val_main_v23 val_main_v27 val_main_v31 val_main_v51 val_main_v72 val_main_v78)
end RI
open Cert.KernelIdeal

variable (t : Fin 96)
variable (X : FVec Ideal S98304x128 .f32) (A : FVec Ideal S192x512x512 .f32)
  (Wq : FVec Ideal S128x128 .f32) (bq : FVec Ideal S128 .f32) (Wk : FVec Ideal S128x128 .f32) (bk : FVec Ideal S128 .f32)
  (Wv : FVec Ideal S128x128 .f32) (bv : FVec Ideal S128 .f32) (Wo : FVec Ideal S128x128 .f32) (bo : FVec Ideal S128 .f32)

/-! ## The kernel's output projection read at an index -/

/-- The left operand's row coordinate in the output product is the output's row. -/
theorem out_lhs0 (j : S1024x128.Idx) (q : dot_S1024x128_S128x128_S1024x128_1_0_0_1_n_n.contr.Idx) :
    (dot_S1024x128_S128x128_S1024x128_1_0_0_1_n_n.lhsIdx j q 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl

/-- The left operand's column coordinate in the output product is the contraction coordinate. -/
theorem out_lhs1 (j : S1024x128.Idx) (q : dot_S1024x128_S128x128_S1024x128_1_0_0_1_n_n.contr.Idx) :
    (dot_S1024x128_S128x128_S1024x128_1_0_0_1_n_n.lhsIdx j q 1).val = (q ⟨0, by decide⟩).val :=
  dot_S1024x128_S128x128_S1024x128_1_0_0_1_n_n.lhsIdx_val_of_single rfl j q

/-- The right operand's row coordinate in the output product is the contraction coordinate. -/
theorem out_rhs0 (j : S1024x128.Idx) (q : dot_S1024x128_S128x128_S1024x128_1_0_0_1_n_n.contr.Idx) :
    (dot_S1024x128_S128x128_S1024x128_1_0_0_1_n_n.rhsIdx j q 0).val = (q ⟨0, by decide⟩).val :=
  dot_S1024x128_S128x128_S1024x128_1_0_0_1_n_n.rhsIdx_val_of_single rfl j q

/-- The right operand's column coordinate in the output product is the output's column. -/
theorem out_rhs1 (j : S1024x128.Idx) (q : dot_S1024x128_S128x128_S1024x128_1_0_0_1_n_n.contr.Idx) :
    (dot_S1024x128_S128x128_S1024x128_1_0_0_1_n_n.rhsIdx j q 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The block's output at row `r` and column `g`: the block's entry plus row `r` of `hs` times column `g` of the weight
    plus the bias at `g`. -/
theorem out_apply (xb : FVec Ideal S1024x128 .f32) (hs : FVec Ideal S1024x128 .bf16) (w : FVec Ideal S128x128 .bf16)
    (bias : FVec Ideal S128 .f32) (r : Fin 1024) (g : Fin 128) :
    KS.out (F := Ideal) xb hs w bias (ix2 r g)
      = xb (ix2 r g) + ((∑ f : Fin 128, hs (ix2 r f) * w (ix2 f g)) + bias (ix1 g)) := by
  unfold KS.out
  rw [addf_apply, addf_apply, shapeCast_self]
  refine congrArg (xb (ix2 r g) + ·) (congrArg₂ (· + ·) ?_ ?_)
  · simp only [matmul]
    rw [Ideal.matmul_constant_zero_apply,
      ← Equiv.sum_comp (contrEquiv1 dot_S1024x128_S128x128_S1024x128_1_0_0_1_n_n 128 rfl rfl).symm]
    refine Finset.sum_congr rfl fun k _ => ?_
    have hk := contrEquiv1_symm_val dot_S1024x128_S128x128_S1024x128_1_0_0_1_n_n 128 rfl rfl k
    have el : dot_S1024x128_S128x128_S1024x128_1_0_0_1_n_n.lhsIdx (ix2 r g)
        ((contrEquiv1 dot_S1024x128_S128x128_S1024x128_1_0_0_1_n_n 128 rfl rfl).symm k) = ix2 r k :=
      funext fun a => Fin.ext (by
        match a with
        | ⟨0, _⟩ => exact out_lhs0 _ _
        | ⟨1, _⟩ => exact (out_lhs1 _ _).trans hk)
    have er : dot_S1024x128_S128x128_S1024x128_1_0_0_1_n_n.rhsIdx (ix2 r g)
        ((contrEquiv1 dot_S1024x128_S128x128_S1024x128_1_0_0_1_n_n 128 rfl rfl).symm k) = ix2 k g :=
      funext fun a => Fin.ext (by
        match a with
        | ⟨0, _⟩ => exact (out_rhs0 _ _).trans hk
        | ⟨1, _⟩ => exact out_rhs1 _ _)
    rw [el, er]
  · rw [broadcastTo_1b_ab_apply, shapeCast_a_1a_apply]

/-! ## The reference's output read at an index -/

/-- The reference's output at global row `R` and column `g`: the input's entry plus row `R` of the normalised mixed
    values times row `g` of the output weight (the product is with the weight's transpose) plus the bias at `g`. -/
theorem ref_apply (R : Fin 98304) (g : Fin 128) :
    RI.val_main_v78 (F := Ideal) X A Wq bq Wk bk Wv bv Wo bo (ix2 R g)
      = X (ix2 R g) + ((∑ k : Fin 128, RI.val_main_v72 (F := Ideal) X A Wq bq Wk bk Wv bv (ix2 R k) * Wo (ix2 g k))
          + bo (ix1 g)) := by
  rw [Cert.ReferenceIdeal.ReadP.val_main_v78_apply, Cert.ReferenceIdeal.ReadP.val_main_v77_apply,
    Cert.ReferenceIdeal.ReadP.val_main_v74_apply, Cert.ReferenceIdeal.ReadP.val_main_v76_apply,
    Cert.ReferenceIdeal.ReadP.val_main_v75_apply]
  refine congrArg (X (ix2 R g) + ·) (congrArg₂ (· + ·) (Finset.sum_congr rfl fun k _ => ?_) ?_)
  · rw [Cert.ReferenceIdeal.ReadP.val_main_v73_apply]
    refine congrArg₂ (· * ·) (congrArg _ ?_) (congrArg _ ?_)
    · funext a
      match a with
      | ⟨0, _⟩ => rfl
      | ⟨1, _⟩ => rfl
    · funext a
      match a with
      | ⟨0, _⟩ => rfl
      | ⟨1, _⟩ => rfl
  · refine congrArg bo ?_
    funext a
    match a with
    | ⟨0, _⟩ => rfl

/-! ## The outputs agree -/

theorem out_ref (xb : FVec Ideal S1024x128 .f32) (hsK : FVec Ideal S1024x128 .bf16) (wo : FVec Ideal S128x128 .bf16) (bov : FVec Ideal S128 .f32)
    (hx : ∀ (r : Fin 1024) (e : Fin 128), xb (ix2 r e) = X (ix2 (gRow t r) e))
    (h72 : ∀ (r : Fin 1024) (e : Fin 128), hsK (ix2 r e) = RI.val_main_v72 (F := Ideal) X A Wq bq Wk bk Wv bv (ix2 (gRow t r) e))
    (hwo : ∀ (f g : Fin 128), wo (ix2 f g) = Wo (ix2 g f))
    (hbo : ∀ g : Fin 128, bov (ix1 g) = bo (ix1 g)) :
    ∀ (r : Fin 1024) (g : Fin 128), KS.out (F := Ideal) xb hsK wo bov (ix2 r g)
      = RI.val_main_v78 (F := Ideal) X A Wq bq Wk bk Wv bv Wo bo (ix2 (gRow t r) g) := by
  intro r g
  rw [out_apply, ref_apply, hx, hbo]
  refine congrArg (fun z => X (ix2 (gRow t r) g) + (z + bo (ix1 g))) (Finset.sum_congr rfl fun k _ => ?_)
  rw [h72, hwo]

end Cert.Proof.SecE
end
-- ==== Proof.DegPos.lean ====
import proofs.«163115_j56324201120151_2_alg».proof.Proof.Gen.Pre_finite_inputs
import Idealize.ShloMosaic.PureOps.Ideal.Laws
import Idealize.ShloMosaic.Lib.ValueIdx
import Idealize.ShloMosaic.Lib.ReduceAll
import Idealize.ShloMosaic.Lib.IdealHost

/-!
# Every row of the adjacency array has a positive sum

The precondition is a conjunction of eleven tests. The last one says: for every batch `b` and row `i`, the sum over
`j` of `A b i j` (taken from the constant `0`) is strictly above `0`. This module reads that last conjunct back at the
ideal values, where a float is an extended real, the comparison "greater than" is the strict order, the bit pattern
`0x00000000` is the number `0`, and a sum over one axis is the initial value plus the finite sum over that axis's
coordinates. The ten finiteness conjuncts are never opened.
-/

namespace Cert.Proof.DegPos

open Idealize.ShloMosaic Idealize.ShloMosaic.ValueIdx Cert.Pre_finite_inputs
open scoped BigOperators

/-- The scalar shape has exactly one index (the empty tuple of coordinates). -/
instance subsingleton_scalarIdx : Subsingleton S_.Idx := ⟨fun a b => funext fun d => d.elim0⟩

/-- The tail of the precondition: if `p ∧ (∀ j, c < v j)`, computed as words (a conjunction of one-bit words, the
    universal quantifier as an `and`-reduction from `1` of the elementwise comparison `v j > c` against the scalar `c`
    broadcast to every index), comes out `1`, then `c < v j` at every index `j`. Only the second conjunct is used. -/
theorem part3_pos [Cert.Pre_finite_inputs.Facts] (v48 : IVec S_ 1) (v49 : FVec Ideal S192x512 .f32)
    (c : FVec Ideal S_ .f32) (h : fn_part3 (F := Ideal) v48 v49 c = fun _ => 1#1) (j : S192x512.Idx) :
    c ix0 < v49 j := by
  have h0 := congrFun h ix0
  unfold fn_part3 at h0
  dsimp only at h0
  -- a conjunction of two bits is 1 only if both are; keep the second
  obtain ⟨_, h2⟩ := IntOp.andi_eq_one.1 h0
  -- an `and`-reduction over all axes that is 1 met a 1 at every index
  have h3 := Host.reduce_andi_all _ _ _ _ _ h2 j
  -- the broadcast scalar reads `c` at every index, and the comparison of extended reals is the strict order
  have h4 : Ideal.cmp .ogt (v49 j) (c ix0) = 1#1 := by
    rw [← broadcastInDim_scalar_apply Facts.bcast_S_S192x512 c j]; exact h3
  by_contra hn
  rw [Ideal.cmp] at h4
  rw [decide_eq_false hn] at h4
  exact absurd h4 (by decide)

/-- If the precondition holds at the ideal values, then for every batch `b` and row `i` the row sum
    `∑ j, A b i j` of the adjacency array `A = x1` is strictly positive (as an extended real).

    The precondition's last conjunct compares `0 + ∑ j, A b i j` with `0`; the initial value `0` drops out. -/
theorem rowsum_pos [Cert.Pre_finite_inputs.Facts]
    (x0 : FVec Ideal Cert.Pre_finite_inputs.S98304x128 .f32) (x1 : FVec Ideal Cert.Pre_finite_inputs.S192x512x512 .f32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (x6 : FVec Ideal Cert.Pre_finite_inputs.S128x128 .f32) (x7 : FVec Ideal Cert.Pre_finite_inputs.S128 .f32)
    (x8 : FVec Ideal Cert.Pre_finite_inputs.S128x128 .f32) (x9 : FVec Ideal Cert.Pre_finite_inputs.S128 .f32)
    (h : Cert.Pre_finite_inputs.fn (F := Ideal) x0 x1 x2 x3 x4 x5 x6 x7 x8 x9 = fun _ => 1#1)
    (b : Fin 192) (i : Fin 512) :
    (0 : EReal) < ∑ j : Fin 512, x1 (ValueIdx.ix3 b i j) := by
  -- the precondition is its tail applied to the conjunction of the first ten tests (left unopened), the array of
  -- row sums from 0, and the scalar 0
  have h' : fn_part3 (F := Ideal) _
      (Host.reduceAdd (F := Ideal) x1 (constant (F := Ideal) S_ .f32 0x00000000#32)
        Facts.reducesTo_S192x512x512_S192x512_d2 Facts.h_S_)
      (constant (F := Ideal) S_ .f32 0x00000000#32) = fun _ => 1#1 := h
  have hp := part3_pos _ _ _ h' (ix2 b i)
  -- 0 < 0 + ∑ k, A (b, i with k inserted on the last axis)
  rw [hostReduceAdd_apply, constant_apply, constant_apply, Ideal.ofBits_zero_f32,
    Ideal.hostReduceAdd_single Facts.reducesTo_S192x512x512_S192x512_d2 (by decide), zero_add] at hp
  -- the index (b, i) with k inserted on the last axis is (b, i, k), coordinate by coordinate
  refine hp.trans_eq (Finset.sum_congr rfl fun k _ => congrArg x1 (funext fun a => Fin.ext ?_))
  match a with
  | ⟨0, _⟩ => rfl
  | ⟨1, _⟩ => rfl
  | ⟨2, _⟩ => rfl

end Cert.Proof.DegPos
-- ==== Proof.Bridge.lean ====
/-
  The two sides joined. At point `t` the six blocks are rows and subgraphs of the arguments; stretch by stretch the
  body's value on them is the reference's stage at the global rows `1024 t + r` (the five section lemmas, each taking
  the one before as its hypothesis); so every point's stored value is the point's block of the reference's result,
  and the result array ends at the reference's result. The degree of every row is positive by the precondition,
  which is what lets the kernel's product with the inverse root stand for the reference's quotient by the root.
-/
import proofs.«163115_j56324201120151_2_alg».proof.Proof.KernelRun
import proofs.«163115_j56324201120151_2_alg».proof.Proof.BlkHost
import proofs.«163115_j56324201120151_2_alg».proof.Proof.SecC
import proofs.«163115_j56324201120151_2_alg».proof.Proof.SecA
import proofs.«163115_j56324201120151_2_alg».proof.Proof.SecB
import proofs.«163115_j56324201120151_2_alg».proof.Proof.SecD
import proofs.«163115_j56324201120151_2_alg».proof.Proof.SecE
import proofs.«163115_j56324201120151_2_alg».proof.Proof.DegPos

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx Cert.Proof.Ix Cert.Proof

variable (m : (ℓ : Loc nD τ sig) → Buf (Elt Ideal) ℓ)

/-- The reference's result as a function of the ten argument arrays of core `c`. -/
def G (c : Dev nD) : S98304x128.Idx → EReal :=
  Cert.ReferenceIdeal.ReadP.val_main_v78 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The adjacency argument of core `c`, as an array of extended reals. -/
def adjOf (c : Dev nD) : S192x512x512.Idx → EReal := m ((c : Thread nD τ).loc main_arg1)

/-- Every point's stored value is the point's block of the reference's result, given positive row degrees. -/
theorem block_value (c : Dev nD)
    (hdeg : ∀ (b : Fin 192) (i : Fin 512), (0 : EReal) < ∑ j : Fin 512, adjOf m c (ix3 b i j))
    (t : Fin cfg0.N) (r : Fin 1024) (g : Fin 128) :
    storedAt m c t (ix2 r g) = G m c (ix2 (gRow (pt t) r) g) := by
  unfold storedAt G
  rw [KS.stored_eq]
  have hx := blk_x m c t
  have ha := blk_adj m c t
  have h18 := SecA.xs_ref (pt t) _ _ hx
  have hq := SecB.q_ref (pt t) _ _ _ _ _ _ h18 (blk_wq m c t) (blk_bq m c t)
  have hk := SecB.k_ref (pt t) _ _ _ _ _ _ h18 (blk_wk m c t) (blk_bk m c t)
  have hv := SecB.v_ref (pt t) _ _ _ _ _ _ h18 (blk_wv m c t) (blk_bv m c t)
  have h51 := SecC.attn_ref (pt t) _ _ _ _ _ _ _ _ _ hq hk ha (fun b i => hdeg (gSub (pt t) b) i)
  have h72 := SecD.hs_ref (pt t) _ _ _ _ _ _ _ _ _ _ h51 hv
  exact SecE.out_ref (pt t) _ _ _ _ _ _ _ _ _ _ _ _ _ _ hx h72 (blk_wo m c t) (blk_bo m c t) r g

end Cert.KernelIdeal.Val

end
-- ==== Proof.lean ====
/-
  The five claims. Kernel (at the word level) and its idealization: eight host operations, then a grid of 96 points
  whose body reads six input buffers and stores one value over its output buffer; nothing ever writes an argument, so
  both frames hold with no hypothesis. The reference: a line of host operations, so its frame is its run with the
  result forgotten. The idealization's one rewrite reads the mask fill `-1e30` as `-∞`, which is what its table says.
  The value claim: the idealized kernel's result array ends, block by block, at the body's stored value of the blocks,
  which stretch by stretch is the reference's stage at the same global rows — normalisation and cut, the three
  projections (the fused weight is `[Wqᵀ | Wkᵀ | Wvᵀ]`), the masked and degree-scaled scores with their row-wise
  exponentials over their sum, the weighted values normalised again, the output projection added to `x`. The two
  programs differ in one place only, `s · rsqrt d` against `s / sqrt d` for the row degree `d`: equal on the extended
  reals exactly when `0 < d`, which is the precondition's last conjunct.
-/
import proofs.«163115_j56324201120151_2_alg».proof.Defs
import proofs.«163115_j56324201120151_2_alg».proof.Proof.FrameBits
import proofs.«163115_j56324201120151_2_alg».proof.Proof.Bridge
import proofs.«163115_j56324201120151_2_alg».proof.Proof.Gen.Kernel
import proofs.«163115_j56324201120151_2_alg».proof.Proof.Gen.KernelIdeal
import proofs.«163115_j56324201120151_2_alg».proof.Proof.Gen.ReferenceIdeal
import proofs.«163115_j56324201120151_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The table gives the name `neg_big` the value `-∞`, and the printed constant is that value. -/
theorem preserves : Cert.preserves_Kernel_KernelIdeal :=
  IdealRules.named_const.statement Cert.KernelIdeal.κ "neg_big" .f32 0xF149F2CA#32 ⊥ rfl

/-- Both runs end with the result array at the reference's result of the (agreeing) arguments. -/
theorem algebraic : Cert.algebraic_KernelIdeal_ReferenceIdeal := by
  intro m ρ m' ρ' hpre hagree
  refine ⟨fun c => Cert.KernelIdeal.Val.G m c,
    Cert.KernelIdeal.Val.run m ρ (Cert.KernelIdeal.Val.G m) (fun c t r g =>
      Cert.KernelIdeal.Val.block_value m c (fun b i => Cert.Proof.DegPos.rowsum_pos _ _ _ _ _ _ _ _ _ _ (hpre c) b i) t r g), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v78_eq]
  obtain ⟨e0, e1, e2, e3, e4, e5, e6, e7, e8, e9⟩ := hagree c
  unfold Cert.KernelIdeal.Val.G
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
